-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x600000 : Shape := ⟨2, ![2, 600000]⟩
abbrev S600000x2 : Shape := ⟨2, ![600000, 2]⟩
abbrev S512x2 : Shape := ⟨2, ![512, 2]⟩
abbrev S100000 : Shape := ⟨1, ![100000]⟩
abbrev S4x64 : Shape := ⟨2, ![4, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S600000x2 : S_.BroadcastsInDim S600000x2 (![] : Fin 0 → Fin S600000x2.rank)
  reducesTo_S600000x2_S_d0_1 : S600000x2.ReducesTo [0, 1] S_
  bcast_S_S512x2 : S_.BroadcastsInDim S512x2 (![] : Fin 0 → Fin S512x2.rank)
  reducesTo_S512x2_S_d0_1 : S512x2.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S132x256 : S_.BroadcastsInDim S132x256 (![] : Fin 0 → Fin S132x256.rank)
  reducesTo_S132x256_S_d0_1 : S132x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg9 : FVec F S132x256 .f32) (main_arg10 : FVec F S256 .f32) (main_arg11 : FVec F S256x512 .f32) (main_arg12 : FVec F S512 .f32) (main_v33 : IVec S_ 1) : IVec S_ 1 :=
  let main_v34 : FVec F S132x256 .f32 := Host.absf main_arg9
  let main_cst_12 : FVec F S_ .f32 := constant S_ .f32 0x7F800000#32
  let main_v35 : FVec F S132x256 .f32 := broadcastInDim S132x256 ![] bcast_S_S132x256 main_cst_12
  let main_v36 : IVec S132x256 1 := cmpf .olt main_v34 main_v35
  let main_c_13 : IVec S_ 1 := constantI S_ 1 1#1
  let main_v37 : IVec S_ 1 := (fun x v => Host.reduce IntOp.andi x v reducesTo_S132x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg11
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg6 : FVec F S64 .f32) (main_arg7 : FVec F S64x128 .f32) (main_arg8 : FVec F S128 .f32) (main_arg9 : FVec F S132x256 .f32) (main_arg10 : FVec F S256 .f32) (main_arg11 : FVec F S256x512 .f32) (main_arg12 : FVec F S512 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x2 .f32) (main_arg1 : IVec S2x600000 32) (main_arg2 : FVec F S600000x2 .f32) (main_arg3 : FVec F S512x2 .f32) (main_arg4 : IVec S100000 32) (main_arg5 : FVec F S4x64 .f32) (main_arg6 : FVec F S64 .f32) (main_arg7 : FVec F S64x128 .f32) (main_arg8 : FVec F S128 .f32) (main_arg9 : FVec F S132x256 .f32) (main_arg10 : FVec F S256 .f32) (main_arg11 : FVec F S256x512 .f32) (main_arg12 : FVec F S512 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S600000x2 .f32 := Host.absf main_arg2
  let main_cst_0 : FVec F S_ .f32 := constant S_ .f32 0x7F800000#32
  let main_v5 : FVec F S600000x2 .f32 := broadcastInDim S600000x2 ![] bcast_S_S600000x2 main_cst_0
  let main_v6 : IVec S600000x2 1 := cmpf .olt main_v4 main_v5
  let main_c_1 : IVec S_ 1 := constantI S_ 1 1#1
  let main_v7 : IVec S_ 1 := (fun x v => Host.reduce IntOp.andi x v reducesTo_S600000x2_S_d0_1 h_S_) main_v6 main_c_1
  let main_v8 : IVec S_ 1 := andi main_v3 main_v7
  let main_v9 : FVec F S512x2 .f32 := Host.absf main_arg3
  let main_cst_2 : FVec F S_ .f32 := constant S_ .f32 0x7F800000#32
  let main_v10 : FVec F S512x2 .f32 := broadcastInDim S512x2 ![] bcast_S_S512x2 main_cst_2
  let main_v11 : IVec S512x2 1 := cmpf .olt main_v9 main_v10
  let main_c_3 : IVec S_ 1 := constantI S_ 1 1#1
  let main_v12 : IVec S_ 1 := (fun x v => Host.reduce IntOp.andi x v reducesTo_S512x2_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_v13 main_v16
-- ==== Kernel.lean ====
abbrev S100000x2 : Shape := ⟨2, ![100000, 2]⟩
abbrev S2x600000 : Shape := ⟨2, ![2, 600000]⟩
abbrev S600000x2 : Shape := ⟨2, ![600000, 2]⟩
abbrev S512x2 : Shape := ⟨2, ![512, 2]⟩
abbrev S100000 : Shape := ⟨1, ![100000]⟩
abbrev S4x64 : Shape := ⟨2, ![4, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x512 : Shape := ⟨2, ![256, 512]⟩
abbrev S512 : Shape := ⟨1, ![512]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x4 : Shape := ⟨2, ![600000, 4]⟩
abbrev S1x64 : Shape := ⟨2, ![1, 64]⟩
abbrev S1x128 : Shape := ⟨2, ![1, 128]⟩
abbrev S600000x128 : Shape := ⟨2, ![600000, 128]⟩
abbrev S3000x4 : Shape := ⟨2, ![3000, 4]⟩
abbrev S3000x128 : Shape := ⟨2, ![3000, 128]⟩
abbrev S3000x64 : Shape := ⟨2, ![3000, 64]⟩
abbrev S100000x128 : Shape := ⟨2, ![100000, 128]⟩
abbrev S100000x1 : Shape := ⟨2, ![100000, 1]⟩
abbrev S100000x132 : Shape := ⟨2, ![100000, 132]⟩
abbrev S1x256 : Shape := ⟨2, ![1, 256]⟩
abbrev S1x512 : Shape := ⟨2, ![1, 512]⟩
abbrev S100000x512 : Shape := ⟨2, ![100000, 512]⟩
abbrev S2000x132 : Shape := ⟨2, ![2000, 132]⟩
abbrev S2000x512 : Shape := ⟨2, ![2000, 512]⟩
abbrev S2000x256 : Shape := ⟨2, ![2000, 256]⟩

abbrev nBuf : Space → Nat
  | .hbm => 58
  | .vmem => 16
  | .smem => 0
  | _ => 0

abbrev bufTy : (tb : Table) → Fin (tcTables nBuf tb) → BufTy
  | .hbm, ⟨0, _⟩ => ⟨S100000x2, .f32⟩
  | .hbm, ⟨1, _⟩ => ⟨S2x600000, .i32⟩
  | .hbm, ⟨2, _⟩ => ⟨S600000x2, .f32⟩
  | .hbm, ⟨3, _⟩ => ⟨S512x2, .f32⟩
  | .hbm, ⟨4, _⟩ => ⟨S100000, .i32⟩
  | .hbm, ⟨5, _⟩ => ⟨S4x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S132x256, .f32⟩
  | .hbm, ⟨10, _⟩ => ⟨S256, .f32⟩
  | .hbm, ⟨11, _⟩ => ⟨S256x512, .f32⟩
  | .hbm, ⟨12, _⟩ => ⟨S512, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x2, .f32⟩
  | .hbm, ⟨26, _⟩ => ⟨S600000x4, .f32⟩
  | .hbm, ⟨27, _⟩ => ⟨S1x64, .f32⟩
  | .hbm, ⟨28, _⟩ => ⟨S1x128, .f32⟩
  | .hbm, ⟨29, _⟩ => ⟨S600000x128, .f32⟩
  | .hbm, ⟨30, _⟩ => ⟨S_, .f32⟩
  | .hbm, ⟨31, _⟩ => ⟨S100000x128, .f32⟩
  | .hbm, ⟨32, _⟩ => ⟨S600000x1, .i32⟩
  | .hbm, ⟨33, _⟩ => ⟨S100000x128, .f32⟩
  | .hbm, ⟨34, _⟩ => ⟨S_, .f32⟩
  | .hbm, ⟨35, _⟩ => ⟨S600000x1, .f32⟩
  | .hbm, ⟨36, _⟩ => ⟨S_, .f32⟩
  | .hbm, ⟨37, _⟩ => ⟨S100000x1, .f32⟩
  | .hbm, ⟨38, _⟩ => ⟨S600000x1, .i32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000x2, .f32⟩
  | .hbm, ⟨54, _⟩ => ⟨S100000x132, .f32⟩
  | .hbm, ⟨55, _⟩ => ⟨S1x256, .f32⟩
  | .hbm, ⟨56, _⟩ => ⟨S1x512, .f32⟩
  | .hbm, ⟨57, _⟩ => ⟨S100000x512, .f32⟩
  | .local _ .vmem, ⟨0, _⟩ => ⟨S3000x4, .f32⟩
  | .local _ .vmem, ⟨1, _⟩ => ⟨S3000x4, .f32⟩
  | .local _ .vmem, ⟨2, _⟩ => ⟨S4x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S3000x128, .f32⟩
  | .local _ .vmem, ⟨7, _⟩ => ⟨S3000x128, .f32⟩
  | .local _ .vmem, ⟨8, _⟩ => ⟨S2000x132, .f32⟩
  | .local _ .vmem, ⟨9, _⟩ => ⟨S2000x132, .f32⟩
  | .local _ .vmem, ⟨10, _⟩ => ⟨S132x256, .f32⟩
  | .local _ .vmem, ⟨11, _⟩ => ⟨S1x256, .f32⟩
  | .local _ .vmem, ⟨12, _⟩ => ⟨S256x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x132 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S132x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x2_S600000x2_S600000x4_d1 : Shape.Concatenates [S600000x2, S600000x2] S600000x4 1
  shapeCasts_S64_S1x64 : S64.ShapeCasts S1x64
  shapeCasts_S128_S1x128 : S128.ShapeCasts S1x128
  inb_S3000x4_S3000x4_0_0 : ∀ a, (![0, 0] : Fin 2 → Nat) a + S3000x4.size a ≤ S3000x4.size a
  h_S3000x4 : 0 < S3000x4.numel
  shapeCasts_S3000x4_S3000x4 : S3000x4.ShapeCasts S3000x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  inb_S3000x128_S3000x128_0_0 : ∀ a, (![0, 0] : Fin 2 → Nat) a + S3000x128.size a ≤ S3000x128.size a
  h_S3000x128 : 0 < S3000x128.numel
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x2_S100000x128_S100000x2_S100000x132_d1 : Shape.Concatenates [S100000x2, S100000x128, S100000x2] S100000x132 1
  shapeCasts_S256_S1x256 : S256.ShapeCasts S1x256
  shapeCasts_S512_S1x512 : S512.ShapeCasts S1x512
  inb_S2000x132_S2000x132_0_0 : ∀ a, (![0, 0] : Fin 2 → Nat) a + S2000x132.size a ≤ S2000x132.size a
  h_S2000x132 : 0 < S2000x132.numel
  shapeCasts_S2000x132_S2000x132 : S2000x132.ShapeCasts S2000x132
  inb_S132x256_S132x256_0_0 : ∀ a, (![0, 0] : Fin 2 → Nat) a + S132x256.size a ≤ S132x256.size a
  h_S132x256 : 0 < S132x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S100000x2_S600000x1_S600000x2_1_0_n_n_0_1_12_wf : GatherDims.WF S100000x2 S600000x1 S600000x2 [1] [0] [] [0] [] 1 ![1, 2]
  dot_S3000x4_S4x64_S3000x64_1_0_0_1_n_n_wf : DotDims.WF S3000x4 S4x64 S3000x64 [1] [0] [0] [1] [] []
  dot_S3000x64_S64x128_S3000x128_1_0_0_1_n_n_wf : DotDims.WF S3000x64 S64x128 S3000x128 [1] [0] [0] [1] [] []
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  gather_S512x2_S100000x1_S100000x2_1_0_n_n_0_1_12_wf : GatherDims.WF S512x2 S100000x1 S100000x2 [1] [0] [] [0] [] 1 ![1, 2]
  dot_S2000x132_S132x256_S2000x256_1_0_0_1_n_n_wf : DotDims.WF S2000x132 S132x256 S2000x256 [1] [0] [0] [1] [] []
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x4.size a ≤ S600000x4.size a
  hwx0_0 : ∀ i : grid0.Coords, EltTy.bits .f32 = 32 ∨ (Rect.block (s := S600000x4) S3000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x128.size a ≤ S600000x128.size a
  hwx0_5 : ∀ i : grid0.Coords, EltTy.bits .f32 = 32 ∨ (Rect.block (s := S600000x128) S3000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x132.size a ≤ S100000x132.size a
  hwx1_0 : ∀ i : grid1.Coords, EltTy.bits .f32 = 32 ∨ (Rect.block (s := S100000x132) S2000x132.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S132x256.size a ≤ S132x256.size a
  hwx1_1 : ∀ i : grid1.Coords, EltTy.bits .f32 = 32 ∨ (Rect.block (s := S132x256) S132x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S100000x512.size a
  hwx1_5 : ∀ i : grid1.Coords, EltTy.bits .f32 = 32 ∨ (Rect.block (s := S100000x512) S2000x512.size (cc1_transform_5 i) (hinb1_5 i)).WholeWords (EltTy.packing .f32)

variable [Facts₀]

def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def dot_S3000x4_S4x64_S3000x64_1_0_0_1_n_n : DotDims S3000x4 S4x64 S3000x64 where
  lhsContracting := [1]
  rhsContracting := [0]
  lhsNonContracting := [0]
  rhsNonContracting := [1]
  lhsBatch := []
  rhsBatch := []
  wf := dot_S3000x4_S4x64_S3000x64_1_0_0_1_n_n_wf
def dot_S3000x64_S64x128_S3000x128_1_0_0_1_n_n : DotDims S3000x64 S64x128 S3000x128 where
  lhsContracting := [1]
  rhsContracting := [0]
  lhsNonContracting := [0]
  rhsNonContracting := [1]
  lhsBatch := []
  rhsBatch := []
  wf := dot_S3000x64_S64x128_S3000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S512x2_S100000x1_S100000x2_1_0_n_n_0_1_12 : GatherDims S512x2 S100000x1 S100000x2 where
  offsetDims := [1]
  collapsedSliceDims := [0]
  operandBatchingDims := []
  startIndicesBatchingDims := []
  startIndexMap := [0]
  indexVectorDim := 1
  sliceSizes := ![1, 2]
  wf := gather_S512x2_S100000x1_S100000x2_1_0_n_n_0_1_12_wf
def dot_S2000x132_S132x256_S2000x256_1_0_0_1_n_n : DotDims S2000x132 S132x256 S2000x256 where
  lhsContracting := [1]
  rhsContracting := [0]
  lhsNonContracting := [0]
  rhsNonContracting := [1]
  lhsBatch := []
  rhsBatch := []
  wf := dot_S2000x132_S132x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v11) S3000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S3000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S2000x132.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S132x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x600000 : Shape := ⟨2, ![2, 600000]⟩
abbrev S600000x2 : Shape := ⟨2, ![600000, 2]⟩
abbrev S512x2 : Shape := ⟨2, ![512, 2]⟩
abbrev S100000 : Shape := ⟨1, ![100000]⟩
abbrev S4x64 : Shape := ⟨2, ![4, 64]⟩
abbrev S64 : Shape := ⟨1, ![64]⟩
abbrev S64x128 : Shape := ⟨2, ![64, 128]⟩
abbrev S128 : Shape := ⟨1, ![128]⟩
abbrev S132x256 : Shape := ⟨2, ![132, 256]⟩
abbrev S256 : Shape := ⟨1, ![256]⟩
abbrev S256x512 : Shape := ⟨2, ![256, 512]⟩
abbrev S512 : Shape := ⟨1, ![512]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x4 : Shape := ⟨2, ![600000, 4]⟩
abbrev S600000x64 : Shape := ⟨2, ![600000, 64]⟩
abbrev S1x64 : Shape := ⟨2, ![1, 64]⟩
abbrev S600000x128 : Shape := ⟨2, ![600000, 128]⟩
abbrev S1x128 : Shape := ⟨2, ![1, 128]⟩
abbrev S100000x128 : Shape := ⟨2, ![100000, 128]⟩
abbrev S100000x1 : Shape := ⟨2, ![100000, 1]⟩
abbrev S100000x132 : Shape := ⟨2, ![100000, 132]⟩
abbrev S100000x256 : Shape := ⟨2, ![100000, 256]⟩
abbrev S1x256 : Shape := ⟨2, ![1, 256]⟩
abbrev S100000x512 : Shape := ⟨2, ![100000, 512]⟩
abbrev S1x512 : Shape := ⟨2, ![1, 512]⟩

abbrev nBuf : Space → Nat
  | .hbm => 74
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x600000, .i32⟩
  | .hbm, ⟨2, _⟩ => ⟨S600000x2, .f32⟩
  | .hbm, ⟨3, _⟩ => ⟨S512x2, .f32⟩
  | .hbm, ⟨4, _⟩ => ⟨S100000, .i32⟩
  | .hbm, ⟨5, _⟩ => ⟨S4x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S132x256, .f32⟩
  | .hbm, ⟨10, _⟩ => ⟨S256, .f32⟩
  | .hbm, ⟨11, _⟩ => ⟨S256x512, .f32⟩
  | .hbm, ⟨12, _⟩ => ⟨S512, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x2, .f32⟩
  | .hbm, ⟨26, _⟩ => ⟨S600000x4, .f32⟩
  | .hbm, ⟨27, _⟩ => ⟨S600000x64, .f32⟩
  | .hbm, ⟨28, _⟩ => ⟨S1x64, .f32⟩
  | .hbm, ⟨29, _⟩ => ⟨S600000x64, .f32⟩
  | .hbm, ⟨30, _⟩ => ⟨S600000x64, .f32⟩
  | .hbm, ⟨31, _⟩ => ⟨S_, .f32⟩
  | .hbm, ⟨32, _⟩ => ⟨S600000x64, .f32⟩
  | .hbm, ⟨33, _⟩ => ⟨S600000x64, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S100000x128, .f32⟩
  | .hbm, ⟨40, _⟩ => ⟨S600000x1, .i32⟩
  | .hbm, ⟨41, _⟩ => ⟨S100000x128, .f32⟩
  | .hbm, ⟨42, _⟩ => ⟨S_, .f32⟩
  | .hbm, ⟨43, _⟩ => ⟨S600000x1, .f32⟩
  | .hbm, ⟨44, _⟩ => ⟨S_, .f32⟩
  | .hbm, ⟨45, _⟩ => ⟨S100000x1, .f32⟩
  | .hbm, ⟨46, _⟩ => ⟨S600000x1, .i32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x2, .f32⟩
  | .hbm, ⟨62, _⟩ => ⟨S100000x132, .f32⟩
  | .hbm, ⟨63, _⟩ => ⟨S100000x256, .f32⟩
  | .hbm, ⟨64, _⟩ => ⟨S1x256, .f32⟩
  | .hbm, ⟨65, _⟩ => ⟨S100000x256, .f32⟩
  | .hbm, ⟨66, _⟩ => ⟨S100000x256, .f32⟩
  | .hbm, ⟨67, _⟩ => ⟨S_, .f32⟩
  | .hbm, ⟨68, _⟩ => ⟨S100000x256, .f32⟩
  | .hbm, ⟨69, _⟩ => ⟨S100000x256, .f32⟩
  | .hbm, ⟨70, _⟩ => ⟨S100000x512, .f32⟩
  | .hbm, ⟨71, _⟩ => ⟨S1x512, .f32⟩
  | .hbm, ⟨72, _⟩ => ⟨S100000x512, .f32⟩
  | .hbm, ⟨73, _⟩ => ⟨S100000x512, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x2_S600000x2_S600000x4_d1 : Shape.Concatenates [S600000x2, S600000x2] S600000x4 1
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S100000x128 : S_.BroadcastsInDim S100000x128 (![] : Fin 0 → Fin S100000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x2_S100000x128_S100000x2_S100000x132_d1 : Shape.Concatenates [S100000x2, S100000x128, S100000x2] S100000x132 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  gather_S100000x2_S600000x1_S600000x2_1_0_n_n_0_1_12_wf : GatherDims.WF S100000x2 S600000x1 S600000x2 [1] [0] [] [0] [] 1 ![1, 2]
  dot_S600000x4_S4x64_S600000x64_1_0_0_1_n_n_wf : DotDims.WF S600000x4 S4x64 S600000x64 [1] [0] [0] [1] [] []
  dot_S600000x64_S64x128_S600000x128_1_0_0_1_n_n_wf : DotDims.WF S600000x64 S64x128 S600000x128 [1] [0] [0] [1] [] []
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  gather_S512x2_S100000x1_S100000x2_1_0_n_n_0_1_12_wf : GatherDims.WF S512x2 S100000x1 S100000x2 [1] [0] [] [0] [] 1 ![1, 2]
  dot_S100000x132_S132x256_S100000x256_1_0_0_1_n_n_wf : DotDims.WF S100000x132 S132x256 S100000x256 [1] [0] [0] [1] [] []
  dot_S100000x256_S256x512_S100000x512_1_0_0_1_n_n_wf : DotDims.WF S100000x256 S256x512 S100000x512 [1] [0] [0] [1] [] []

variable [Facts₀]

def gather_S100000x2_S600000x1_S600000x2_1_0_n_n_0_1_12 : GatherDims S100000x2 S600000x1 S600000x2 where
  offsetDims := [1]
  collapsedSliceDims := [0]
  operandBatchingDims := []
  startIndicesBatchingDims := []
  startIndexMap := [0]
  indexVectorDim := 1
  sliceSizes := ![1, 2]
  wf := gather_S100000x2_S600000x1_S600000x2_1_0_n_n_0_1_12_wf
def dot_S600000x4_S4x64_S600000x64_1_0_0_1_n_n : DotDims S600000x4 S4x64 S600000x64 where
  lhsContracting := [1]
  rhsContracting := [0]
  lhsNonContracting := [0]
  rhsNonContracting := [1]
  lhsBatch := []
  rhsBatch := []
  wf := dot_S600000x4_S4x64_S600000x64_1_0_0_1_n_n_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S512x2_S100000x1_S100000x2_1_0_n_n_0_1_12 : GatherDims S512x2 S100000x1 S100000x2 where
  offsetDims := [1]
  collapsedSliceDims := [0]
  operandBatchingDims := []
  startIndicesBatchingDims := []
  startIndexMap := [0]
  indexVectorDim := 1
  sliceSizes := ![1, 2]
  wf := gather_S512x2_S100000x1_S100000x2_1_0_n_n_0_1_12_wf
def dot_S100000x132_S132x256_S100000x256_1_0_0_1_n_n : DotDims S100000x132 S132x256 S100000x256 where
  lhsContracting := [1]
  rhsContracting := [0]
  lhsNonContracting := [0]
  rhsNonContracting := [1]
  lhsBatch := []
  rhsBatch := []
  wf := dot_S100000x132_S132x256_S100000x256_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf

class Facts : Prop extends Facts₀ where

variable [Facts]
-- ==== Proof.K.Body0.lean ====
/-
  The first perceptron's kernel, one grid point at a time.

  The region tiles the 600000 edge rows into 200 blocks of 3000 rows; the two weight matrices and the two bias rows
  are one block each, the same at every point. At a point the body reads the five input blocks, computes one value
  (the perceptron of the 3000 rows) and stores it over the whole output block. So whatever the output's staging
  buffer held before, afterwards it holds that value of the point's input blocks, and every input buffer still
  holds its block: this is the pipeline's body obligation, proved here for any float instance.
-/
import proofs.«167135_j47966194762017_1_alg».proof.Proof.Gen.Kernel.Launch
import proofs.«167135_j47966194762017_1_alg».proof.Proof.Gen.Kernel.Skeleton
import proofs.«167135_j47966194762017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not: where it
    was not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX0 : Rect S3000x4 := Rect.unit (s := S3000x4) ![0, 0] S3000x4.size inb_S3000x4_S3000x4_0_0
abbrev rW0a : Rect S4x64 := Rect.unit (s := S4x64) ![0, 0] S4x64.size inb_S4x64_S4x64_0_0
abbrev rB0a : Rect S1x64 := Rect.unit (s := S1x64) ![0, 0] S1x64.size inb_S1x64_S1x64_0_0
abbrev rW0b : Rect S64x128 := Rect.unit (s := S64x128) ![0, 0] S64x128.size inb_S64x128_S64x128_0_0
abbrev rB0b : Rect S1x128 := Rect.unit (s := S1x128) ![0, 0] S1x128.size inb_S1x128_S1x128_0_0
abbrev rO0 : Rect S3000x128 := Rect.unit (s := S3000x128) ![0, 0] S3000x128.size inb_S3000x128_S3000x128_0_0

/-- What the body leaves in the output's staging buffer, as a function of the five input blocks: its one store, of the
    body's value of the blocks as loaded. -/
def out0_5 (x0 : Vec F S3000x4 .f32) (x1 : Vec F S4x64 .f32) (x2 : Vec F S1x64 .f32) (x3 : Vec F S64x128 .f32) (x4 : Vec F S1x128 .f32) : Vec F S3000x128 .f32 :=
  View.canon [⟨rO0, k0_pay1 (View.ld x0 rX0) (View.ld x1 rW0a) (View.ld x2 rB0a) (View.ld x3 rW0b) (View.ld x4 rB0b)⟩]

/-- The store covers the buffer. -/
theorem cover0_5 (p0 : Vec F S3000x128 .f32) (y : S3000x128.Idx) :
    ∃ pc ∈ ([⟨rO0, p0⟩] : List (View.Piece (Elt F) S3000x128 .f32)), y ∈ pc.1.set :=
  View.cover_of_tiled [⟨rO0, p0⟩] S3000x128.size (by rfl) y

/-! ## The body's triple -/

set_option maxHeartbeats 1000000 in
/-- The body on whole staging memrefs, the inputs' at read contents `x0 … x4` and the output's at anything, runs to the
    continuation holding the inputs' as they were and the output's at `out0_5` of them. -/
theorem sound_kernel0 (c : Dev nD) (E : Set ℕ) (i : grid0.Coords)
    (arg1 : Memref sig .tc .vmem S3000x4 .f32) (harg1 : arg1.IsWhole) (arg2 : Memref sig .tc .vmem S4x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S3000x128 .f32) (harg6 : arg6.IsWhole)
    (x0 : Vec F S3000x4 .f32) (x1 : Vec F S4x64 .f32) (x2 : Vec F S1x64 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp1_kernel i arg1 harg1 arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region on core `c`: the arrays as the region finds them; after the body at point `t` each
    input's buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  The second perceptron's kernel, one grid point at a time.

  The region tiles the 100000 node rows into 50 blocks of 2000 rows; the two weight matrices and the two bias rows
  are one block each, the same at every point. At a point the body reads the five input blocks, computes one value
  (the perceptron of the 2000 rows) and stores it over the whole output block. So whatever the output's staging
  buffer held before, afterwards it holds that value of the point's input blocks, and every input buffer still
  holds its block: this is the pipeline's body obligation, proved here for any float instance.
-/
import proofs.«167135_j47966194762017_1_alg».proof.Proof.Gen.Kernel.Launch
import proofs.«167135_j47966194762017_1_alg».proof.Proof.Gen.Kernel.Skeleton
import proofs.«167135_j47966194762017_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not: where it
    was not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rX1 : Rect S2000x132 := Rect.unit (s := S2000x132) ![0, 0] S2000x132.size inb_S2000x132_S2000x132_0_0
abbrev rW1a : Rect S132x256 := Rect.unit (s := S132x256) ![0, 0] S132x256.size inb_S132x256_S132x256_0_0
abbrev rB1a : Rect S1x256 := Rect.unit (s := S1x256) ![0, 0] S1x256.size inb_S1x256_S1x256_0_0
abbrev rW1b : Rect S256x512 := Rect.unit (s := S256x512) ![0, 0] S256x512.size inb_S256x512_S256x512_0_0
abbrev rB1b : Rect S1x512 := Rect.unit (s := S1x512) ![0, 0] S1x512.size inb_S1x512_S1x512_0_0
abbrev rO1 : Rect S2000x512 := Rect.unit (s := S2000x512) ![0, 0] S2000x512.size inb_S2000x512_S2000x512_0_0

/-- What the body leaves in the output's staging buffer, as a function of the five input blocks: its one store, of the
    body's value of the blocks as loaded. -/
def out1_5 (x0 : Vec F S2000x132 .f32) (x1 : Vec F S132x256 .f32) (x2 : Vec F S1x256 .f32) (x3 : Vec F S256x512 .f32) (x4 : Vec F S1x512 .f32) : Vec F S2000x512 .f32 :=
  View.canon [⟨rO1, k1_pay1 (View.ld x0 rX1) (View.ld x1 rW1a) (View.ld x2 rB1a) (View.ld x3 rW1b) (View.ld x4 rB1b)⟩]

/-- The store covers the buffer. -/
theorem cover1_5 (p0 : Vec F S2000x512 .f32) (y : S2000x512.Idx) :
    ∃ pc ∈ ([⟨rO1, p0⟩] : List (View.Piece (Elt F) S2000x512 .f32)), y ∈ pc.1.set :=
  View.cover_of_tiled [⟨rO1, p0⟩] S2000x512.size (by rfl) y

/-! ## The body's triple -/

set_option maxHeartbeats 1000000 in
/-- The body on whole staging memrefs, the inputs' at read contents `x0 … x4` and the output's at anything, runs to the
    continuation holding the inputs' as they were and the output's at `out1_5` of them. -/
theorem sound_kernel1 (c : Dev nD) (E : Set ℕ) (i : grid1.Coords)
    (arg1 : Memref sig .tc .vmem S2000x132 .f32) (harg1 : arg1.IsWhole) (arg2 : Memref sig .tc .vmem S132x256 .f32) (harg2 : arg2.IsWhole)
    (arg3 : Memref sig .tc .vmem S1x256 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S2000x512 .f32) (harg6 : arg6.IsWhole)
    (x0 : Vec F S2000x132 .f32) (x1 : Vec F S132x256 .f32) (x2 : Vec F S1x256 .f32) (x3 : Vec F S256x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core `c`: the arrays as the region finds them; after the body at point `t` each
    input's buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as four items — the host operations before the first kernel, the first kernel's region, the
  host operations between the kernels, the second kernel's region — and what every buffer outside the kernels'
  staging memory holds at each of the five boundaries between them.

  At a host stretch the contents after it are the operations applied, in order, to the contents before it. At a
  region the contents change only at the region's own arrays: an input array ends as it was found, and the output
  array ends at what the grid's write-backs leave of it, block by block. Each region is entered with all of these
  buffers in hand at the contents of its boundary and left with them at the next boundary's; the random-number
  register and the core's dues ride along untouched. Running the items from the launch memory, every weakly fair
  execution terminates, without a fault, with every such buffer at the last boundary's contents: `run_all`. No
  item writes an argument array, so each is read back through the five boundaries to its launch contents: `frame`.
-/
import proofs.«167135_j47966194762017_1_alg».proof.Proof.K.Body0
import proofs.«167135_j47966194762017_1_alg».proof.Proof.K.Body1
import proofs.«167135_j47966194762017_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first host stretch: what the first region finds. -/
abbrev B1 : Dev nD → Valuation τ sig (Elt F) := fun c => StableHlo.after hostOps0 (B0 m c)
/-- The same read at the TensorCore's references. -/
abbrev in0 : (c : Dev nD) → (b : Ref sig .tc) → Buf (Elt F) ((c : Thread nD τ).loc b) := fun c b => B1 m c b
/-- After the first region: its arrays at what the pipeline leaves, every other buffer as it was found. -/
def B2 (c : Dev nD) : Valuation τ sig (Elt F) :=
  Pipeline.withArrays spec0 c (B1 m c) fun w => (dat0 (in0 m) c).arrAt w cfg0.N
theorem B2_arr (c : Dev nD) (w : Fin cfg0.W) :
    B2 m c (Proc.devRef .tc (Pipeline.arrRef spec0 w)) = (dat0 (in0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev out0 : (c : Dev nD) → (b : Ref sig .tc) → Buf (Elt F) ((c : Thread nD τ).loc b) := fun c b => B2 m c b
theorem hF0 (c : Dev nD) (w : Fin cfg0.W) : (dat0 (in0 m) c).arrAt w cfg0.N = out0 m c (Pipeline.arrRef spec0 w) :=
  (B2_arr m c w).symm
theorem hrest0 (c : Dev nD) : ∀ b, b ∉ Finset.univ.image (Pipeline.arrRef spec0) → out0 m c b = in0 m c b :=
  fun b hb => B2_of_ne m c b fun w e => hb (Finset.mem_image.mpr ⟨w, Finset.mem_univ _, e⟩)

/-- After the second host stretch: what the second region finds. -/
abbrev B3 : Dev nD → Valuation τ sig (Elt F) := fun c => StableHlo.after hostOps1 (B2 m c)
abbrev in1 : (c : Dev nD) → (b : Ref sig .tc) → Buf (Elt F) ((c : Thread nD τ).loc b) := fun c b => B3 m c b
/-- After the second region. -/
def B4 (c : Dev nD) : Valuation τ sig (Elt F) :=
  Pipeline.withArrays spec1 c (B3 m c) fun w => (dat1 (in1 m) c).arrAt w cfg1.N
theorem B4_arr (c : Dev nD) (w : Fin cfg1.W) :
    B4 m c (Proc.devRef .tc (Pipeline.arrRef spec1 w)) = (dat1 (in1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev out1 : (c : Dev nD) → (b : Ref sig .tc) → Buf (Elt F) ((c : Thread nD τ).loc b) := fun c b => B4 m c b
theorem hF1 (c : Dev nD) (w : Fin cfg1.W) : (dat1 (in1 m) c).arrAt w cfg1.N = out1 m c (Pipeline.arrRef spec1 w) :=
  (B4_arr m c w).symm
theorem hrest1 (c : Dev nD) : ∀ b, b ∉ Finset.univ.image (Pipeline.arrRef spec1) → out1 m c b = in1 m c b :=
  fun b hb => B4_of_ne m c b fun w e => hb (Finset.mem_image.mpr ⟨w, Finset.mem_univ _, e⟩)

/-! ## A buffer no item writes reaches the end as launched -/

/-- A buffer that neither host stretch writes and that is no array of either region. -/
theorem B4_untouched (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    B4 m c (Proc.devRef .tc r) = m ((c : Thread nD τ).loc r) :=
  (B4_of_ne m c r ha1).trans <| (StableHlo.after_of_writes_sub hostOps1 _ hostOps1_writes h1).trans <|
    (B2_of_ne m c r ha0).trans <| (StableHlo.after_of_writes_sub hostOps0 _ hostOps0_writes h0).trans rfl
/-- An input array of the first region that nothing else touches. -/
theorem B4_input0 (c : Dev nD) (w : Fin cfg0.W) (hw : (cfg0.win w).isOut = false) (h0 : Pipeline.arrRef spec0 w ∉ hostOps0_W)
    (h1 : Pipeline.arrRef spec0 w ∉ hostOps1_W) (ha1 : ∀ w', Pipeline.arrRef spec1 w' ≠ Pipeline.arrRef spec0 w) :
    B4 m c (Proc.devRef .tc (Pipeline.arrRef spec0 w)) = m ((c : Thread nD τ).loc (Pipeline.arrRef spec0 w)) :=
  (B4_of_ne m c _ ha1).trans <| (StableHlo.after_of_writes_sub hostOps1 _ hostOps1_writes h1).trans <|
    (B2_arr m c w).trans <| ((dat0 (in0 m) c).arrAt_in w hw _).trans <| (A_eq0 (in0 m) c w).trans <|
    (StableHlo.after_of_writes_sub hostOps0 _ hostOps0_writes h0).trans rfl
/-- An input array of the second region that nothing else touches. -/
theorem B4_input1 (c : Dev nD) (w : Fin cfg1.W) (hw : (cfg1.win w).isOut = false) (h0 : Pipeline.arrRef spec1 w ∉ hostOps0_W)
    (h1 : Pipeline.arrRef spec1 w ∉ hostOps1_W) (ha0 : ∀ w', Pipeline.arrRef spec0 w' ≠ Pipeline.arrRef spec1 w) :
    B4 m c (Proc.devRef .tc (Pipeline.arrRef spec1 w)) = m ((c : Thread nD τ).loc (Pipeline.arrRef spec1 w)) :=
  (B4_arr m c w).trans <| ((dat1 (in1 m) c).arrAt_in w hw _).trans <| (A_eq1 (in1 m) c w).trans <|
    (StableHlo.after_of_writes_sub hostOps1 _ hostOps1_writes h1).trans <|
    (B2_of_ne m c _ ha0).trans <| (StableHlo.after_of_writes_sub hostOps0 _ hostOps0_writes h0).trans rfl

theorem B4_main_arg0 (c : Dev nD) : B4 m c (Proc.devRef .tc main_arg0) = m ((c : Thread nD τ).loc main_arg0) :=
  B4_untouched m c main_arg0 (by decide) (by decide) (by decide) (by decide)
theorem B4_main_arg1 (c : Dev nD) : B4 m c (Proc.devRef .tc main_arg1) = m ((c : Thread nD τ).loc main_arg1) :=
  B4_untouched m c main_arg1 (by decide) (by decide) (by decide) (by decide)
theorem B4_main_arg2 (c : Dev nD) : B4 m c (Proc.devRef .tc main_arg2) = m ((c : Thread nD τ).loc main_arg2) :=
  B4_untouched m c main_arg2 (by decide) (by decide) (by decide) (by decide)
theorem B4_main_arg3 (c : Dev nD) : B4 m c (Proc.devRef .tc main_arg3) = m ((c : Thread nD τ).loc main_arg3) :=
  B4_untouched m c main_arg3 (by decide) (by decide) (by decide) (by decide)
theorem B4_main_arg4 (c : Dev nD) : B4 m c (Proc.devRef .tc main_arg4) = m ((c : Thread nD τ).loc main_arg4) :=
  B4_untouched m c main_arg4 (by decide) (by decide) (by decide) (by decide)
theorem B4_main_arg5 (c : Dev nD) : B4 m c (Proc.devRef .tc main_arg5) = m ((c : Thread nD τ).loc main_arg5) :=
  B4_input0 m c 1 rfl (by decide) (by decide) (by decide)
theorem B4_main_arg6 (c : Dev nD) : B4 m c (Proc.devRef .tc main_arg6) = m ((c : Thread nD τ).loc main_arg6) :=
  B4_untouched m c main_arg6 (by decide) (by decide) (by decide) (by decide)
theorem B4_main_arg7 (c : Dev nD) : B4 m c (Proc.devRef .tc main_arg7) = m ((c : Thread nD τ).loc main_arg7) :=
  B4_input0 m c 3 rfl (by decide) (by decide) (by decide)
theorem B4_main_arg8 (c : Dev nD) : B4 m c (Proc.devRef .tc main_arg8) = m ((c : Thread nD τ).loc main_arg8) :=
  B4_untouched m c main_arg8 (by decide) (by decide) (by decide) (by decide)
theorem B4_main_arg9 (c : Dev nD) : B4 m c (Proc.devRef .tc main_arg9) = m ((c : Thread nD τ).loc main_arg9) :=
  B4_input1 m c 1 rfl (by decide) (by decide) (by decide)
theorem B4_main_arg10 (c : Dev nD) : B4 m c (Proc.devRef .tc main_arg10) = m ((c : Thread nD τ).loc main_arg10) :=
  B4_untouched m c main_arg10 (by decide) (by decide) (by decide) (by decide)
theorem B4_main_arg11 (c : Dev nD) : B4 m c (Proc.devRef .tc main_arg11) = m ((c : Thread nD τ).loc main_arg11) :=
  B4_input1 m c 3 rfl (by decide) (by decide) (by decide)
theorem B4_main_arg12 (c : Dev nD) : B4 m c (Proc.devRef .tc main_arg12) = m ((c : Thread nD τ).loc main_arg12) :=
  B4_untouched m c main_arg12 (by decide) (by decide) (by decide) (by decide)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c
abbrev 𝒱₀ : Variants := Variants.none
abbrev L : GSem nD τ sig → Finset Unit := fun _ => ∅
abbrev lv : GSem nD τ sig → Unit → ℕ := fun _ _ => 0
/-- What rides beside the buffers through every item: the core's random-number register at some state and its dues,
    which are none. -/
abbrev R (c : Dev nD) : sProp 𝕄 := iprop((∃ r, prngReg c r) ∗ ∃ W, owes (c : Thread nD τ) (0 : CellTallies nD τ sig Unit) W)
/-- A host stretch as an item: from the contents `W` to the operations applied to them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart. -/
abbrev Tₙ (c : Dev nD) : sProp 𝕄 := iprop(StableHlo.held (c : Thread nD τ) (Pipeline.ucRefs τ sig) (B4 m c) ∗ ∃ r, prngReg c r)

/-! ## The regions as items -/

set_option backward.isDefEq.respectTransparency.types false in
/-- The first region: entered with every buffer at `B1`, left with them at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every buffer at `B3`, left with them at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- From any memory with zero counters, every weakly fair execution of the program terminates, nothing faulting, and
    every buffer outside the kernels' staging memory ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c),
     (h c _ (mem_uc main_arg9 (by decide))).trans (B4_main_arg9 m c),
     (h c _ (mem_uc main_arg10 (by decide))).trans (B4_main_arg10 m c),
     (h c _ (mem_uc main_arg11 (by decide))).trans (B4_main_arg11 m c),
     (h c _ (mem_uc main_arg12 (by decide))).trans (B4_main_arg12 m c)⟩) (run_all m ρ)

end Cert.Kernel.Hand

end
-- ==== Proof.KI.Body0.lean ====
/-
  The first perceptron's kernel, one grid point at a time.

  The region tiles the 600000 edge rows into 200 blocks of 3000 rows; the two weight matrices and the two bias rows
  are one block each, the same at every point. At a point the body reads the five input blocks, computes one value
  (the perceptron of the 3000 rows) and stores it over the whole output block. So whatever the output's staging
  buffer held before, afterwards it holds that value of the point's input blocks, and every input buffer still
  holds its block: this is the pipeline's body obligation, proved here for any float instance.
-/
import proofs.«167135_j47966194762017_1_alg».proof.Proof.Gen.KernelIdeal.Launch
import proofs.«167135_j47966194762017_1_alg».proof.Proof.Gen.KernelIdeal.Skeleton
import proofs.«167135_j47966194762017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not: where it
    was not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rX0 : Rect S3000x4 := Rect.unit (s := S3000x4) ![0, 0] S3000x4.size inb_S3000x4_S3000x4_0_0
abbrev rW0a : Rect S4x64 := Rect.unit (s := S4x64) ![0, 0] S4x64.size inb_S4x64_S4x64_0_0
abbrev rB0a : Rect S1x64 := Rect.unit (s := S1x64) ![0, 0] S1x64.size inb_S1x64_S1x64_0_0
abbrev rW0b : Rect S64x128 := Rect.unit (s := S64x128) ![0, 0] S64x128.size inb_S64x128_S64x128_0_0
abbrev rB0b : Rect S1x128 := Rect.unit (s := S1x128) ![0, 0] S1x128.size inb_S1x128_S1x128_0_0
abbrev rO0 : Rect S3000x128 := Rect.unit (s := S3000x128) ![0, 0] S3000x128.size inb_S3000x128_S3000x128_0_0

/-- What the body leaves in the output's staging buffer, as a function of the five input blocks: its one store, of the
    body's value of the blocks as loaded. -/
def out0_5 (x0 : Vec F S3000x4 .f32) (x1 : Vec F S4x64 .f32) (x2 : Vec F S1x64 .f32) (x3 : Vec F S64x128 .f32) (x4 : Vec F S1x128 .f32) : Vec F S3000x128 .f32 :=
  View.canon [⟨rO0, k0_pay1 (View.ld x0 rX0) (View.ld x1 rW0a) (View.ld x2 rB0a) (View.ld x3 rW0b) (View.ld x4 rB0b)⟩]

/-- The store covers the buffer. -/
theorem cover0_5 (p0 : Vec F S3000x128 .f32) (y : S3000x128.Idx) :
    ∃ pc ∈ ([⟨rO0, p0⟩] : List (View.Piece (Elt F) S3000x128 .f32)), y ∈ pc.1.set :=
  View.cover_of_tiled [⟨rO0, p0⟩] S3000x128.size (by rfl) y

/-! ## The body's triple -/

set_option maxHeartbeats 1000000 in
/-- The body on whole staging memrefs, the inputs' at read contents `x0 … x4` and the output's at anything, runs to the
    continuation holding the inputs' as they were and the output's at `out0_5` of them. -/
theorem sound_kernel0 (c : Dev nD) (E : Set ℕ) (i : grid0.Coords)
    (arg1 : Memref sig .tc .vmem S3000x4 .f32) (harg1 : arg1.IsWhole) (arg2 : Memref sig .tc .vmem S4x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S3000x128 .f32) (harg6 : arg6.IsWhole)
    (x0 : Vec F S3000x4 .f32) (x1 : Vec F S4x64 .f32) (x2 : Vec F S1x64 .f32) (x3 : Vec F S64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp1_kernel i arg1 harg1 arg2 harg2 arg3 harg3 arg4 harg4 arg5 harg5 arg6 harg6) K := by
  simp only [cc0__mlp1_kernel_eq_skeleton]; unfold cc0__mlp1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region on core `c`: the arrays as the region finds them; after the body at point `t` each
    input's buffer at its block and the output's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The second perceptron's kernel, one grid point at a time.

  The region tiles the 100000 node rows into 50 blocks of 2000 rows; the two weight matrices and the two bias rows
  are one block each, the same at every point. At a point the body reads the five input blocks, computes one value
  (the perceptron of the 2000 rows) and stores it over the whole output block. So whatever the output's staging
  buffer held before, afterwards it holds that value of the point's input blocks, and every input buffer still
  holds its block: this is the pipeline's body obligation, proved here for any float instance.
-/
import proofs.«167135_j47966194762017_1_alg».proof.Proof.Gen.KernelIdeal.Launch
import proofs.«167135_j47966194762017_1_alg».proof.Proof.Gen.KernelIdeal.Skeleton
import proofs.«167135_j47966194762017_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the body finds -/

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not: where it
    was not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev rX1 : Rect S2000x132 := Rect.unit (s := S2000x132) ![0, 0] S2000x132.size inb_S2000x132_S2000x132_0_0
abbrev rW1a : Rect S132x256 := Rect.unit (s := S132x256) ![0, 0] S132x256.size inb_S132x256_S132x256_0_0
abbrev rB1a : Rect S1x256 := Rect.unit (s := S1x256) ![0, 0] S1x256.size inb_S1x256_S1x256_0_0
abbrev rW1b : Rect S256x512 := Rect.unit (s := S256x512) ![0, 0] S256x512.size inb_S256x512_S256x512_0_0
abbrev rB1b : Rect S1x512 := Rect.unit (s := S1x512) ![0, 0] S1x512.size inb_S1x512_S1x512_0_0
abbrev rO1 : Rect S2000x512 := Rect.unit (s := S2000x512) ![0, 0] S2000x512.size inb_S2000x512_S2000x512_0_0

/-- What the body leaves in the output's staging buffer, as a function of the five input blocks: its one store, of the
    body's value of the blocks as loaded. -/
def out1_5 (x0 : Vec F S2000x132 .f32) (x1 : Vec F S132x256 .f32) (x2 : Vec F S1x256 .f32) (x3 : Vec F S256x512 .f32) (x4 : Vec F S1x512 .f32) : Vec F S2000x512 .f32 :=
  View.canon [⟨rO1, k1_pay1 (View.ld x0 rX1) (View.ld x1 rW1a) (View.ld x2 rB1a) (View.ld x3 rW1b) (View.ld x4 rB1b)⟩]

/-- The store covers the buffer. -/
theorem cover1_5 (p0 : Vec F S2000x512 .f32) (y : S2000x512.Idx) :
    ∃ pc ∈ ([⟨rO1, p0⟩] : List (View.Piece (Elt F) S2000x512 .f32)), y ∈ pc.1.set :=
  View.cover_of_tiled [⟨rO1, p0⟩] S2000x512.size (by rfl) y

/-! ## The body's triple -/

set_option maxHeartbeats 1000000 in
/-- The body on whole staging memrefs, the inputs' at read contents `x0 … x4` and the output's at anything, runs to the
    continuation holding the inputs' as they were and the output's at `out1_5` of them. -/
theorem sound_kernel1 (c : Dev nD) (E : Set ℕ) (i : grid1.Coords)
    (arg1 : Memref sig .tc .vmem S2000x132 .f32) (harg1 : arg1.IsWhole) (arg2 : Memref sig .tc .vmem S132x256 .f32) (harg2 : arg2.IsWhole)
    (arg3 : Memref sig .tc .vmem S1x256 .f32) (harg3 : arg3.IsWhole) (arg4 : Memref sig .tc .vmem S256x512 .f32) (harg4 : arg4.IsWhole)
    (arg5 : Memref sig .tc .vmem S1x512 .f32) (harg5 : arg5.IsWhole) (arg6 : Memref sig .tc .vmem S2000x512 .f32) (harg6 : arg6.IsWhole)
    (x0 : Vec F S2000x132 .f32) (x1 : Vec F S132x256 .f32) (x2 : Vec F S1x256 .f32) (x3 : Vec F S256x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp2_kernel i arg1 harg1 arg2 harg2 arg3 harg3 arg4 harg4 arg5 harg5 arg6 harg6) K := by
  simp only [cc1__mlp2_kernel_eq_skeleton]; unfold cc1__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core `c`: the arrays as the region finds them; after the body at point `t` each
    input's buffer at its block and the output's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four items — the host operations before the first kernel, the first kernel's region, the
  host operations between the kernels, the second kernel's region — and what every buffer outside the kernels'
  staging memory holds at each of the five boundaries between them.

  At a host stretch the contents after it are the operations applied, in order, to the contents before it. At a
  region the contents change only at the region's own arrays: an input array ends as it was found, and the output
  array ends at what the grid's write-backs leave of it, block by block. Each region is entered with all of these
  buffers in hand at the contents of its boundary and left with them at the next boundary's; the random-number
  register and the core's dues ride along untouched. Running the items from the launch memory, every weakly fair
  execution terminates, without a fault, with every such buffer at the last boundary's contents: `run_all`. No
  item writes an argument array, so each is read back through the five boundaries to its launch contents: `frame`.
-/
import proofs.«167135_j47966194762017_1_alg».proof.Proof.KI.Body0
import proofs.«167135_j47966194762017_1_alg».proof.Proof.KI.Body1
import proofs.«167135_j47966194762017_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first host stretch: what the first region finds. -/
abbrev B1 : Dev nD → Valuation τ sig (Elt F) := fun c => StableHlo.after hostOps0 (B0 m c)
/-- The same read at the TensorCore's references. -/
abbrev in0 : (c : Dev nD) → (b : Ref sig .tc) → Buf (Elt F) ((c : Thread nD τ).loc b) := fun c b => B1 m c b
/-- After the first region: its arrays at what the pipeline leaves, every other buffer as it was found. -/
def B2 (c : Dev nD) : Valuation τ sig (Elt F) :=
  Pipeline.withArrays spec0 c (B1 m c) fun w => (dat0 (in0 m) c).arrAt w cfg0.N
theorem B2_arr (c : Dev nD) (w : Fin cfg0.W) :
    B2 m c (Proc.devRef .tc (Pipeline.arrRef spec0 w)) = (dat0 (in0 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev out0 : (c : Dev nD) → (b : Ref sig .tc) → Buf (Elt F) ((c : Thread nD τ).loc b) := fun c b => B2 m c b
theorem hF0 (c : Dev nD) (w : Fin cfg0.W) : (dat0 (in0 m) c).arrAt w cfg0.N = out0 m c (Pipeline.arrRef spec0 w) :=
  (B2_arr m c w).symm
theorem hrest0 (c : Dev nD) : ∀ b, b ∉ Finset.univ.image (Pipeline.arrRef spec0) → out0 m c b = in0 m c b :=
  fun b hb => B2_of_ne m c b fun w e => hb (Finset.mem_image.mpr ⟨w, Finset.mem_univ _, e⟩)

/-- After the second host stretch: what the second region finds. -/
abbrev B3 : Dev nD → Valuation τ sig (Elt F) := fun c => StableHlo.after hostOps1 (B2 m c)
abbrev in1 : (c : Dev nD) → (b : Ref sig .tc) → Buf (Elt F) ((c : Thread nD τ).loc b) := fun c b => B3 m c b
/-- After the second region. -/
def B4 (c : Dev nD) : Valuation τ sig (Elt F) :=
  Pipeline.withArrays spec1 c (B3 m c) fun w => (dat1 (in1 m) c).arrAt w cfg1.N
theorem B4_arr (c : Dev nD) (w : Fin cfg1.W) :
    B4 m c (Proc.devRef .tc (Pipeline.arrRef spec1 w)) = (dat1 (in1 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev out1 : (c : Dev nD) → (b : Ref sig .tc) → Buf (Elt F) ((c : Thread nD τ).loc b) := fun c b => B4 m c b
theorem hF1 (c : Dev nD) (w : Fin cfg1.W) : (dat1 (in1 m) c).arrAt w cfg1.N = out1 m c (Pipeline.arrRef spec1 w) :=
  (B4_arr m c w).symm
theorem hrest1 (c : Dev nD) : ∀ b, b ∉ Finset.univ.image (Pipeline.arrRef spec1) → out1 m c b = in1 m c b :=
  fun b hb => B4_of_ne m c b fun w e => hb (Finset.mem_image.mpr ⟨w, Finset.mem_univ _, e⟩)

/-! ## A buffer no item writes reaches the end as launched -/

/-- A buffer that neither host stretch writes and that is no array of either region. -/
theorem B4_untouched (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    B4 m c (Proc.devRef .tc r) = m ((c : Thread nD τ).loc r) :=
  (B4_of_ne m c r ha1).trans <| (StableHlo.after_of_writes_sub hostOps1 _ hostOps1_writes h1).trans <|
    (B2_of_ne m c r ha0).trans <| (StableHlo.after_of_writes_sub hostOps0 _ hostOps0_writes h0).trans rfl
/-- An input array of the first region that nothing else touches. -/
theorem B4_input0 (c : Dev nD) (w : Fin cfg0.W) (hw : (cfg0.win w).isOut = false) (h0 : Pipeline.arrRef spec0 w ∉ hostOps0_W)
    (h1 : Pipeline.arrRef spec0 w ∉ hostOps1_W) (ha1 : ∀ w', Pipeline.arrRef spec1 w' ≠ Pipeline.arrRef spec0 w) :
    B4 m c (Proc.devRef .tc (Pipeline.arrRef spec0 w)) = m ((c : Thread nD τ).loc (Pipeline.arrRef spec0 w)) :=
  (B4_of_ne m c _ ha1).trans <| (StableHlo.after_of_writes_sub hostOps1 _ hostOps1_writes h1).trans <|
    (B2_arr m c w).trans <| ((dat0 (in0 m) c).arrAt_in w hw _).trans <| (A_eq0 (in0 m) c w).trans <|
    (StableHlo.after_of_writes_sub hostOps0 _ hostOps0_writes h0).trans rfl
/-- An input array of the second region that nothing else touches. -/
theorem B4_input1 (c : Dev nD) (w : Fin cfg1.W) (hw : (cfg1.win w).isOut = false) (h0 : Pipeline.arrRef spec1 w ∉ hostOps0_W)
    (h1 : Pipeline.arrRef spec1 w ∉ hostOps1_W) (ha0 : ∀ w', Pipeline.arrRef spec0 w' ≠ Pipeline.arrRef spec1 w) :
    B4 m c (Proc.devRef .tc (Pipeline.arrRef spec1 w)) = m ((c : Thread nD τ).loc (Pipeline.arrRef spec1 w)) :=
  (B4_arr m c w).trans <| ((dat1 (in1 m) c).arrAt_in w hw _).trans <| (A_eq1 (in1 m) c w).trans <|
    (StableHlo.after_of_writes_sub hostOps1 _ hostOps1_writes h1).trans <|
    (B2_of_ne m c _ ha0).trans <| (StableHlo.after_of_writes_sub hostOps0 _ hostOps0_writes h0).trans rfl

theorem B4_main_arg0 (c : Dev nD) : B4 m c (Proc.devRef .tc main_arg0) = m ((c : Thread nD τ).loc main_arg0) :=
  B4_untouched m c main_arg0 (by decide) (by decide) (by decide) (by decide)
theorem B4_main_arg1 (c : Dev nD) : B4 m c (Proc.devRef .tc main_arg1) = m ((c : Thread nD τ).loc main_arg1) :=
  B4_untouched m c main_arg1 (by decide) (by decide) (by decide) (by decide)
theorem B4_main_arg2 (c : Dev nD) : B4 m c (Proc.devRef .tc main_arg2) = m ((c : Thread nD τ).loc main_arg2) :=
  B4_untouched m c main_arg2 (by decide) (by decide) (by decide) (by decide)
theorem B4_main_arg3 (c : Dev nD) : B4 m c (Proc.devRef .tc main_arg3) = m ((c : Thread nD τ).loc main_arg3) :=
  B4_untouched m c main_arg3 (by decide) (by decide) (by decide) (by decide)
theorem B4_main_arg4 (c : Dev nD) : B4 m c (Proc.devRef .tc main_arg4) = m ((c : Thread nD τ).loc main_arg4) :=
  B4_untouched m c main_arg4 (by decide) (by decide) (by decide) (by decide)
theorem B4_main_arg5 (c : Dev nD) : B4 m c (Proc.devRef .tc main_arg5) = m ((c : Thread nD τ).loc main_arg5) :=
  B4_input0 m c 1 rfl (by decide) (by decide) (by decide)
theorem B4_main_arg6 (c : Dev nD) : B4 m c (Proc.devRef .tc main_arg6) = m ((c : Thread nD τ).loc main_arg6) :=
  B4_untouched m c main_arg6 (by decide) (by decide) (by decide) (by decide)
theorem B4_main_arg7 (c : Dev nD) : B4 m c (Proc.devRef .tc main_arg7) = m ((c : Thread nD τ).loc main_arg7) :=
  B4_input0 m c 3 rfl (by decide) (by decide) (by decide)
theorem B4_main_arg8 (c : Dev nD) : B4 m c (Proc.devRef .tc main_arg8) = m ((c : Thread nD τ).loc main_arg8) :=
  B4_untouched m c main_arg8 (by decide) (by decide) (by decide) (by decide)
theorem B4_main_arg9 (c : Dev nD) : B4 m c (Proc.devRef .tc main_arg9) = m ((c : Thread nD τ).loc main_arg9) :=
  B4_input1 m c 1 rfl (by decide) (by decide) (by decide)
theorem B4_main_arg10 (c : Dev nD) : B4 m c (Proc.devRef .tc main_arg10) = m ((c : Thread nD τ).loc main_arg10) :=
  B4_untouched m c main_arg10 (by decide) (by decide) (by decide) (by decide)
theorem B4_main_arg11 (c : Dev nD) : B4 m c (Proc.devRef .tc main_arg11) = m ((c : Thread nD τ).loc main_arg11) :=
  B4_input1 m c 3 rfl (by decide) (by decide) (by decide)
theorem B4_main_arg12 (c : Dev nD) : B4 m c (Proc.devRef .tc main_arg12) = m ((c : Thread nD τ).loc main_arg12) :=
  B4_untouched m c main_arg12 (by decide) (by decide) (by decide) (by decide)

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c
abbrev 𝒱₀ : Variants := Variants.none
abbrev L : GSem nD τ sig → Finset Unit := fun _ => ∅
abbrev lv : GSem nD τ sig → Unit → ℕ := fun _ _ => 0
/-- What rides beside the buffers through every item: the core's random-number register at some state and its dues,
    which are none. -/
abbrev R (c : Dev nD) : sProp 𝕄 := iprop((∃ r, prngReg c r) ∗ ∃ W, owes (c : Thread nD τ) (0 : CellTallies nD τ sig Unit) W)
/-- A host stretch as an item: from the contents `W` to the operations applied to them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart. -/
abbrev Tₙ (c : Dev nD) : sProp 𝕄 := iprop(StableHlo.held (c : Thread nD τ) (Pipeline.ucRefs τ sig) (B4 m c) ∗ ∃ r, prngReg c r)

/-! ## The regions as items -/

set_option backward.isDefEq.respectTransparency.types false in
/-- The first region: entered with every buffer at `B1`, left with them at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (out0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every buffer at `B3`, left with them at `B4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (out1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]
theorem main_run (c : Dev nD) : main (F := F) c = Pipeline.Seg.run (segs m) := (main_chain c).trans (by chain_rfl)

set_option backward.isDefEq.respectTransparency.types false in
/-- From any memory with zero counters, every weakly fair execution of the program terminates, nothing faulting, and
    every buffer outside the kernels' staging memory ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c),
     (h c _ (mem_uc main_arg9 (by decide))).trans (B4_main_arg9 m c),
     (h c _ (mem_uc main_arg10 (by decide))).trans (B4_main_arg10 m c),
     (h c _ (mem_uc main_arg11 (by decide))).trans (B4_main_arg11 m c),
     (h c _ (mem_uc main_arg12 (by decide))).trans (B4_main_arg12 m c)⟩) (run_all m ρ)

end Cert.KernelIdeal.Hand

end
-- ==== Proof.Spec.lean ====
/-
  The mathematics both programs compute, stated once over the extended reals.

  A two-layer perceptron acts on one row at a time: from a row `x` of `a` numbers it forms, for each of `h` hidden
  units, the sum of products with a column of `W1` plus a bias, clips it below at zero, and then, for each of `o`
  output units, sums the products of the clipped values with a column of `W2` and adds a second bias. Applied to
  every row of an array this is `mlp`; the same row function describes a block of rows of a tiled computation and
  the whole array at once, which is why a tiling of the rows does not change the result.
-/
import Idealize.ShloMosaic.PureOps.Ideal
import Idealize.ShloMosaic.Lib.ValueIdx

noncomputable section

open scoped BigOperators

namespace Cert.Spec

open Idealize.ShloMosaic Idealize.ShloMosaic.ValueIdx

/-- One row through the two layers: `(∑ₖ max (∑ᵢ xᵢ·W1ᵢₖ + b1ₖ) 0 · W2ₖⱼ) + b2ⱼ`. The zero is kept as the float word
    both programs write for it. -/
def mlpRow {a h o : ℕ} (x : Fin a → EReal) (W1 : Fin a → Fin h → EReal) (b1 : Fin h → EReal)
    (W2 : Fin h → Fin o → EReal) (b2 : Fin o → EReal) (j : Fin o) : EReal :=
  (∑ k : Fin h, max ((∑ i : Fin a, x i * W1 i k) + b1 k) (Ideal.ofBits .f32 0x00000000#32) * W2 k j) + b2 j

/-- The two layers applied to every row of an `n × a` array, the biases given as vectors. -/
def mlp {n a h o : ℕ} (X : FVec Ideal ⟨2, ![n, a]⟩ .f32) (W1 : FVec Ideal ⟨2, ![a, h]⟩ .f32)
    (b1 : FVec Ideal ⟨1, ![h]⟩ .f32) (W2 : FVec Ideal ⟨2, ![h, o]⟩ .f32) (b2 : FVec Ideal ⟨1, ![o]⟩ .f32) :
    FVec Ideal ⟨2, ![n, o]⟩ .f32 :=
  fun y => mlpRow (fun i => X (ix2 ⟨(y 0).val, idx2_lt0 y⟩ i)) (fun i k => W1 (ix2 i k)) (fun k => b1 (ix1 k))
    (fun k j => W2 (ix2 k j)) (fun j => b2 (ix1 j)) ⟨(y 1).val, idx2_lt1 y⟩

/-- `mlp` at row `r`, column `j` is the row function of row `r`. -/
theorem mlp_apply {n a h o : ℕ} (X : FVec Ideal ⟨2, ![n, a]⟩ .f32) (W1 : FVec Ideal ⟨2, ![a, h]⟩ .f32)
    (b1 : FVec Ideal ⟨1, ![h]⟩ .f32) (W2 : FVec Ideal ⟨2, ![h, o]⟩ .f32) (b2 : FVec Ideal ⟨1, ![o]⟩ .f32)
    (r : Fin n) (j : Fin o) :
    mlp X W1 b1 W2 b2 (ix2 r j) = mlpRow (fun i => X (ix2 r i)) (fun i k => W1 (ix2 i k)) (fun k => b1 (ix1 k))
      (fun k j => W2 (ix2 k j)) (fun j => b2 (ix1 j)) j := rfl

end Cert.Spec

end
-- ==== Proof.Pay.lean ====
/-
  The values the two kernel bodies store, read at one row and one column, at the ideal instance.

  Each body takes a block of rows, two weight matrices and two bias rows, and stores: the block times the first
  weights plus the first bias (the bias row repeated down the block), clipped below at zero, times the second weights,
  plus the second bias. The changes of format on the way are the identity over the extended reals, each product into a
  zero accumulator is the plain sum over the contracted coordinate, and a cast between equal shapes is the identity.
  So the stored value at row `p`, column `j` is the row function of the shared specification applied to row `p`.
-/
import proofs.«167135_j47966194762017_1_alg».proof.Proof.Gen.KernelIdeal.Skeleton
import proofs.«167135_j47966194762017_1_alg».proof.Proof.Spec
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx
/-! ## The first body: rows of 4 numbers, 64 hidden units, 128 outputs -/

/-- The left operand's index of the first product keeps the output's row … -/
theorem mm0a_lhs0 (j : S3000x64.Idx) (q : dot_S3000x4_S4x64_S3000x64_1_0_0_1_n_n.contr.Idx) : (dot_S3000x4_S4x64_S3000x64_1_0_0_1_n_n.lhsIdx j q 0).val = (j 0).val := by
  unfold DotDims.lhsIdx
  rw [dif_neg (show ¬(0 : Fin S3000x4.rank) ∈ dot_S3000x4_S4x64_S3000x64_1_0_0_1_n_n.lhsBatch by decide), dif_pos (show (0 : Fin S3000x4.rank) ∈ dot_S3000x4_S4x64_S3000x64_1_0_0_1_n_n.lhsNonContracting by decide)]
  rfl
/-- … and takes the contracted coordinate as its column; -/
theorem mm0a_lhs1 (j : S3000x64.Idx) (q : dot_S3000x4_S4x64_S3000x64_1_0_0_1_n_n.contr.Idx) : (dot_S3000x4_S4x64_S3000x64_1_0_0_1_n_n.lhsIdx j q 1).val = (q ⟨0, by decide⟩).val :=
  dot_S3000x4_S4x64_S3000x64_1_0_0_1_n_n.lhsIdx_val_of_single rfl j q
/-- the right operand's index takes the contracted coordinate as its row … -/
theorem mm0a_rhs0 (j : S3000x64.Idx) (q : dot_S3000x4_S4x64_S3000x64_1_0_0_1_n_n.contr.Idx) : (dot_S3000x4_S4x64_S3000x64_1_0_0_1_n_n.rhsIdx j q 0).val = (q ⟨0, by decide⟩).val :=
  dot_S3000x4_S4x64_S3000x64_1_0_0_1_n_n.rhsIdx_val_of_single rfl j q
/-- … and keeps the output's column. -/
theorem mm0a_rhs1 (j : S3000x64.Idx) (q : dot_S3000x4_S4x64_S3000x64_1_0_0_1_n_n.contr.Idx) : (dot_S3000x4_S4x64_S3000x64_1_0_0_1_n_n.rhsIdx j q 1).val = (j 1).val := by
  unfold DotDims.rhsIdx
  rw [dif_neg (show ¬(1 : Fin S4x64.rank) ∈ dot_S3000x4_S4x64_S3000x64_1_0_0_1_n_n.rhsBatch by decide), dif_pos (show (1 : Fin S4x64.rank) ∈ dot_S3000x4_S4x64_S3000x64_1_0_0_1_n_n.rhsNonContracting by decide)]
  rfl

/-- The first product, `[3000,4] × [4,64]` into zeros: at `(p, c)` the sum over the 4 contracted coordinates. -/
theorem mm0a_apply {φ₁ φ₂ : FTy} (lhs : FVec Ideal S3000x4 φ₁) (rhs : FVec Ideal S4x64 φ₂) (p : Fin 3000) (c : Fin 64) :
    matmul (F := Ideal) dot_S3000x4_S4x64_S3000x64_1_0_0_1_n_n none lhs rhs (constant (F := Ideal) S3000x64 .f32 0x00000000#32) (ix2 p c)
      = ∑ i : Fin 4, lhs (ix2 p i) * rhs (ix2 i c) := by
  refine (Ideal.matmul_constant_zero_apply dot_S3000x4_S4x64_S3000x64_1_0_0_1_n_n none lhs rhs (ix2 p c)).trans ?_
  rw [← Equiv.sum_comp (contrEquiv1 dot_S3000x4_S4x64_S3000x64_1_0_0_1_n_n 4 rfl rfl).symm]
  refine Finset.sum_congr rfl fun i _ => ?_
  have hk := contrEquiv1_symm_val dot_S3000x4_S4x64_S3000x64_1_0_0_1_n_n 4 rfl rfl i
  have el : dot_S3000x4_S4x64_S3000x64_1_0_0_1_n_n.lhsIdx (ix2 p c) ((contrEquiv1 dot_S3000x4_S4x64_S3000x64_1_0_0_1_n_n 4 rfl rfl).symm i) = ix2 p i :=
    funext fun a => Fin.ext (by
      match a with
      | ⟨0, _⟩ => exact mm0a_lhs0 _ _
      | ⟨1, _⟩ => exact (mm0a_lhs1 _ _).trans hk)
  have er : dot_S3000x4_S4x64_S3000x64_1_0_0_1_n_n.rhsIdx (ix2 p c) ((contrEquiv1 dot_S3000x4_S4x64_S3000x64_1_0_0_1_n_n 4 rfl rfl).symm i) = ix2 i c :=
    funext fun a => Fin.ext (by
      match a with
      | ⟨0, _⟩ => exact (mm0a_rhs0 _ _).trans hk
      | ⟨1, _⟩ => exact mm0a_rhs1 _ _)
  rw [el, er]

/-- The left operand's index of the second product keeps the output's row … -/
theorem mm0b_lhs0 (j : S3000x128.Idx) (q : dot_S3000x64_S64x128_S3000x128_1_0_0_1_n_n.contr.Idx) : (dot_S3000x64_S64x128_S3000x128_1_0_0_1_n_n.lhsIdx j q 0).val = (j 0).val := by
  unfold DotDims.lhsIdx
  rw [dif_neg (show ¬(0 : Fin S3000x64.rank) ∈ dot_S3000x64_S64x128_S3000x128_1_0_0_1_n_n.lhsBatch by decide), dif_pos (show (0 : Fin S3000x64.rank) ∈ dot_S3000x64_S64x128_S3000x128_1_0_0_1_n_n.lhsNonContracting by decide)]
  rfl
/-- … and takes the contracted coordinate as its column; -/
theorem mm0b_lhs1 (j : S3000x128.Idx) (q : dot_S3000x64_S64x128_S3000x128_1_0_0_1_n_n.contr.Idx) : (dot_S3000x64_S64x128_S3000x128_1_0_0_1_n_n.lhsIdx j q 1).val = (q ⟨0, by decide⟩).val :=
  dot_S3000x64_S64x128_S3000x128_1_0_0_1_n_n.lhsIdx_val_of_single rfl j q
/-- the right operand's index takes the contracted coordinate as its row … -/
theorem mm0b_rhs0 (j : S3000x128.Idx) (q : dot_S3000x64_S64x128_S3000x128_1_0_0_1_n_n.contr.Idx) : (dot_S3000x64_S64x128_S3000x128_1_0_0_1_n_n.rhsIdx j q 0).val = (q ⟨0, by decide⟩).val :=
  dot_S3000x64_S64x128_S3000x128_1_0_0_1_n_n.rhsIdx_val_of_single rfl j q
/-- … and keeps the output's column. -/
theorem mm0b_rhs1 (j : S3000x128.Idx) (q : dot_S3000x64_S64x128_S3000x128_1_0_0_1_n_n.contr.Idx) : (dot_S3000x64_S64x128_S3000x128_1_0_0_1_n_n.rhsIdx j q 1).val = (j 1).val := by
  unfold DotDims.rhsIdx
  rw [dif_neg (show ¬(1 : Fin S64x128.rank) ∈ dot_S3000x64_S64x128_S3000x128_1_0_0_1_n_n.rhsBatch by decide), dif_pos (show (1 : Fin S64x128.rank) ∈ dot_S3000x64_S64x128_S3000x128_1_0_0_1_n_n.rhsNonContracting by decide)]
  rfl

/-- The second product, `[3000,64] × [64,128]` into zeros: at `(p, c)` the sum over the 64 contracted coordinates. -/
theorem mm0b_apply {φ₁ φ₂ : FTy} (lhs : FVec Ideal S3000x64 φ₁) (rhs : FVec Ideal S64x128 φ₂) (p : Fin 3000) (c : Fin 128) :
    matmul (F := Ideal) dot_S3000x64_S64x128_S3000x128_1_0_0_1_n_n none lhs rhs (constant (F := Ideal) S3000x128 .f32 0x00000000#32) (ix2 p c)
      = ∑ i : Fin 64, lhs (ix2 p i) * rhs (ix2 i c) := by
  refine (Ideal.matmul_constant_zero_apply dot_S3000x64_S64x128_S3000x128_1_0_0_1_n_n none lhs rhs (ix2 p c)).trans ?_
  rw [← Equiv.sum_comp (contrEquiv1 dot_S3000x64_S64x128_S3000x128_1_0_0_1_n_n 64 rfl rfl).symm]
  refine Finset.sum_congr rfl fun i _ => ?_
  have hk := contrEquiv1_symm_val dot_S3000x64_S64x128_S3000x128_1_0_0_1_n_n 64 rfl rfl i
  have el : dot_S3000x64_S64x128_S3000x128_1_0_0_1_n_n.lhsIdx (ix2 p c) ((contrEquiv1 dot_S3000x64_S64x128_S3000x128_1_0_0_1_n_n 64 rfl rfl).symm i) = ix2 p i :=
    funext fun a => Fin.ext (by
      match a with
      | ⟨0, _⟩ => exact mm0b_lhs0 _ _
      | ⟨1, _⟩ => exact (mm0b_lhs1 _ _).trans hk)
  have er : dot_S3000x64_S64x128_S3000x128_1_0_0_1_n_n.rhsIdx (ix2 p c) ((contrEquiv1 dot_S3000x64_S64x128_S3000x128_1_0_0_1_n_n 64 rfl rfl).symm i) = ix2 i c :=
    funext fun a => Fin.ext (by
      match a with
      | ⟨0, _⟩ => exact (mm0b_rhs0 _ _).trans hk
      | ⟨1, _⟩ => exact mm0b_rhs1 _ _)
  rw [el, er]

/-- The stored value of the first body at row `p`, column `j`, written out. -/
theorem pay0_raw (x0 : Vec Ideal S3000x4 .f32) (w1 : Vec Ideal S4x64 .f32) (B1 : Vec Ideal S1x64 .f32) (w2 : Vec Ideal S64x128 .f32) (B2 : Vec Ideal S1x128 .f32) (p : Fin 3000) (j : Fin 128) :
    k0_pay1 (F := Ideal) x0 w1 B1 w2 B2 (ix2 p j)
      = (∑ k : Fin 64, max ((∑ i : Fin 4, x0 (ix2 p i) * w1 (ix2 i k)) + B1 (ix2 (0 : Fin 1) k)) (Ideal.ofBits .f32 0x00000000#32) * w2 (ix2 k j)) + B2 (ix2 (0 : Fin 1) j) := by
  simp only [k0_pay1, addf_apply, maximumf_apply, truncf_apply, broadcast_apply, shapeCast_self, broadcastTo_1b_ab_apply, mm0b_apply, mm0a_apply]
  rfl
/-! ## The second body: rows of 132 numbers, 256 hidden units, 512 outputs -/

/-- The left operand's index of the first product keeps the output's row … -/
theorem mm1a_lhs0 (j : S2000x256.Idx) (q : dot_S2000x132_S132x256_S2000x256_1_0_0_1_n_n.contr.Idx) : (dot_S2000x132_S132x256_S2000x256_1_0_0_1_n_n.lhsIdx j q 0).val = (j 0).val := by
  unfold DotDims.lhsIdx
  rw [dif_neg (show ¬(0 : Fin S2000x132.rank) ∈ dot_S2000x132_S132x256_S2000x256_1_0_0_1_n_n.lhsBatch by decide), dif_pos (show (0 : Fin S2000x132.rank) ∈ dot_S2000x132_S132x256_S2000x256_1_0_0_1_n_n.lhsNonContracting by decide)]
  rfl
/-- … and takes the contracted coordinate as its column; -/
theorem mm1a_lhs1 (j : S2000x256.Idx) (q : dot_S2000x132_S132x256_S2000x256_1_0_0_1_n_n.contr.Idx) : (dot_S2000x132_S132x256_S2000x256_1_0_0_1_n_n.lhsIdx j q 1).val = (q ⟨0, by decide⟩).val :=
  dot_S2000x132_S132x256_S2000x256_1_0_0_1_n_n.lhsIdx_val_of_single rfl j q
/-- the right operand's index takes the contracted coordinate as its row … -/
theorem mm1a_rhs0 (j : S2000x256.Idx) (q : dot_S2000x132_S132x256_S2000x256_1_0_0_1_n_n.contr.Idx) : (dot_S2000x132_S132x256_S2000x256_1_0_0_1_n_n.rhsIdx j q 0).val = (q ⟨0, by decide⟩).val :=
  dot_S2000x132_S132x256_S2000x256_1_0_0_1_n_n.rhsIdx_val_of_single rfl j q
/-- … and keeps the output's column. -/
theorem mm1a_rhs1 (j : S2000x256.Idx) (q : dot_S2000x132_S132x256_S2000x256_1_0_0_1_n_n.contr.Idx) : (dot_S2000x132_S132x256_S2000x256_1_0_0_1_n_n.rhsIdx j q 1).val = (j 1).val := by
  unfold DotDims.rhsIdx
  rw [dif_neg (show ¬(1 : Fin S132x256.rank) ∈ dot_S2000x132_S132x256_S2000x256_1_0_0_1_n_n.rhsBatch by decide), dif_pos (show (1 : Fin S132x256.rank) ∈ dot_S2000x132_S132x256_S2000x256_1_0_0_1_n_n.rhsNonContracting by decide)]
  rfl

/-- The first product, `[2000,132] × [132,256]` into zeros: at `(p, c)` the sum over the 132 contracted coordinates. -/
theorem mm1a_apply {φ₁ φ₂ : FTy} (lhs : FVec Ideal S2000x132 φ₁) (rhs : FVec Ideal S132x256 φ₂) (p : Fin 2000) (c : Fin 256) :
    matmul (F := Ideal) dot_S2000x132_S132x256_S2000x256_1_0_0_1_n_n none lhs rhs (constant (F := Ideal) S2000x256 .f32 0x00000000#32) (ix2 p c)
      = ∑ i : Fin 132, lhs (ix2 p i) * rhs (ix2 i c) := by
  refine (Ideal.matmul_constant_zero_apply dot_S2000x132_S132x256_S2000x256_1_0_0_1_n_n none lhs rhs (ix2 p c)).trans ?_
  rw [← Equiv.sum_comp (contrEquiv1 dot_S2000x132_S132x256_S2000x256_1_0_0_1_n_n 132 rfl rfl).symm]
  refine Finset.sum_congr rfl fun i _ => ?_
  have hk := contrEquiv1_symm_val dot_S2000x132_S132x256_S2000x256_1_0_0_1_n_n 132 rfl rfl i
  have el : dot_S2000x132_S132x256_S2000x256_1_0_0_1_n_n.lhsIdx (ix2 p c) ((contrEquiv1 dot_S2000x132_S132x256_S2000x256_1_0_0_1_n_n 132 rfl rfl).symm i) = ix2 p i :=
    funext fun a => Fin.ext (by
      match a with
      | ⟨0, _⟩ => exact mm1a_lhs0 _ _
      | ⟨1, _⟩ => exact (mm1a_lhs1 _ _).trans hk)
  have er : dot_S2000x132_S132x256_S2000x256_1_0_0_1_n_n.rhsIdx (ix2 p c) ((contrEquiv1 dot_S2000x132_S132x256_S2000x256_1_0_0_1_n_n 132 rfl rfl).symm i) = ix2 i c :=
    funext fun a => Fin.ext (by
      match a with
      | ⟨0, _⟩ => exact (mm1a_rhs0 _ _).trans hk
      | ⟨1, _⟩ => exact mm1a_rhs1 _ _)
  rw [el, er]

/-- The left operand's index of the second product keeps the output's row … -/
theorem mm1b_lhs0 (j : S2000x512.Idx) (q : dot_S2000x256_S256x512_S2000x512_1_0_0_1_n_n.contr.Idx) : (dot_S2000x256_S256x512_S2000x512_1_0_0_1_n_n.lhsIdx j q 0).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- … and takes the contracted coordinate as its column; -/
theorem mm1b_lhs1 (j : S2000x512.Idx) (q : dot_S2000x256_S256x512_S2000x512_1_0_0_1_n_n.contr.Idx) : (dot_S2000x256_S256x512_S2000x512_1_0_0_1_n_n.lhsIdx j q 1).val = (q ⟨0, by decide⟩).val :=
  dot_S2000x256_S256x512_S2000x512_1_0_0_1_n_n.lhsIdx_val_of_single rfl j q
/-- the right operand's index takes the contracted coordinate as its row … -/
theorem mm1b_rhs0 (j : S2000x512.Idx) (q : dot_S2000x256_S256x512_S2000x512_1_0_0_1_n_n.contr.Idx) : (dot_S2000x256_S256x512_S2000x512_1_0_0_1_n_n.rhsIdx j q 0).val = (q ⟨0, by decide⟩).val :=
  dot_S2000x256_S256x512_S2000x512_1_0_0_1_n_n.rhsIdx_val_of_single rfl j q
/-- … and keeps the output's column. -/
theorem mm1b_rhs1 (j : S2000x512.Idx) (q : dot_S2000x256_S256x512_S2000x512_1_0_0_1_n_n.contr.Idx) : (dot_S2000x256_S256x512_S2000x512_1_0_0_1_n_n.rhsIdx j q 1).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The second product, `[2000,256] × [256,512]` into zeros: at `(p, c)` the sum over the 256 contracted coordinates. -/
theorem mm1b_apply {φ₁ φ₂ : FTy} (lhs : FVec Ideal S2000x256 φ₁) (rhs : FVec Ideal S256x512 φ₂) (p : Fin 2000) (c : Fin 512) :
    matmul (F := Ideal) dot_S2000x256_S256x512_S2000x512_1_0_0_1_n_n none lhs rhs (constant (F := Ideal) S2000x512 .f32 0x00000000#32) (ix2 p c)
      = ∑ i : Fin 256, lhs (ix2 p i) * rhs (ix2 i c) := by
  refine (Ideal.matmul_constant_zero_apply dot_S2000x256_S256x512_S2000x512_1_0_0_1_n_n none lhs rhs (ix2 p c)).trans ?_
  rw [← Equiv.sum_comp (contrEquiv1 dot_S2000x256_S256x512_S2000x512_1_0_0_1_n_n 256 rfl rfl).symm]
  refine Finset.sum_congr rfl fun i _ => ?_
  have hk := contrEquiv1_symm_val dot_S2000x256_S256x512_S2000x512_1_0_0_1_n_n 256 rfl rfl i
  have el : dot_S2000x256_S256x512_S2000x512_1_0_0_1_n_n.lhsIdx (ix2 p c) ((contrEquiv1 dot_S2000x256_S256x512_S2000x512_1_0_0_1_n_n 256 rfl rfl).symm i) = ix2 p i :=
    funext fun a => Fin.ext (by
      match a with
      | ⟨0, _⟩ => exact mm1b_lhs0 _ _
      | ⟨1, _⟩ => exact (mm1b_lhs1 _ _).trans hk)
  have er : dot_S2000x256_S256x512_S2000x512_1_0_0_1_n_n.rhsIdx (ix2 p c) ((contrEquiv1 dot_S2000x256_S256x512_S2000x512_1_0_0_1_n_n 256 rfl rfl).symm i) = ix2 i c :=
    funext fun a => Fin.ext (by
      match a with
      | ⟨0, _⟩ => exact (mm1b_rhs0 _ _).trans hk
      | ⟨1, _⟩ => exact mm1b_rhs1 _ _)
  rw [el, er]

/-- The stored value of the second body at row `p`, column `j`, written out. -/
theorem pay1_raw (x0 : Vec Ideal S2000x132 .f32) (w1 : Vec Ideal S132x256 .f32) (B1 : Vec Ideal S1x256 .f32) (w2 : Vec Ideal S256x512 .f32) (B2 : Vec Ideal S1x512 .f32) (p : Fin 2000) (j : Fin 512) :
    k1_pay1 (F := Ideal) x0 w1 B1 w2 B2 (ix2 p j)
      = (∑ k : Fin 256, max ((∑ i : Fin 132, x0 (ix2 p i) * w1 (ix2 i k)) + B1 (ix2 (0 : Fin 1) k)) (Ideal.ofBits .f32 0x00000000#32) * w2 (ix2 k j)) + B2 (ix2 (0 : Fin 1) j) := by
  simp only [k1_pay1, addf_apply, maximumf_apply, truncf_apply, broadcast_apply, shapeCast_self, broadcastTo_1b_ab_apply, mm1b_apply, mm1a_apply]
  rfl

/-! ## The stored values as the row function of the specification -/

/-- The first body's stored value at row `p`, column `j` is the row function of row `p` of its block. -/
theorem pay0_eq (x0 : Vec Ideal S3000x4 .f32) (w1 : Vec Ideal S4x64 .f32) (B1 : Vec Ideal S1x64 .f32) (w2 : Vec Ideal S64x128 .f32) (B2 : Vec Ideal S1x128 .f32) (p : Fin 3000) (j : Fin 128) :
    k0_pay1 (F := Ideal) x0 w1 B1 w2 B2 (ix2 p j) = Cert.Spec.mlpRow (fun i : Fin 4 => x0 (ix2 p i)) (fun (i : Fin 4) (k : Fin 64) => w1 (ix2 i k)) (fun k : Fin 64 => B1 (ix2 (0 : Fin 1) k)) (fun (k : Fin 64) (j : Fin 128) => w2 (ix2 k j)) (fun j : Fin 128 => B2 (ix2 (0 : Fin 1) j)) j :=
  pay0_raw x0 w1 B1 w2 B2 p j

/-- The second body's stored value at row `p`, column `j` is the row function of row `p` of its block. -/
theorem pay1_eq (x0 : Vec Ideal S2000x132 .f32) (w1 : Vec Ideal S132x256 .f32) (B1 : Vec Ideal S1x256 .f32) (w2 : Vec Ideal S256x512 .f32) (B2 : Vec Ideal S1x512 .f32) (p : Fin 2000) (j : Fin 512) :
    k1_pay1 (F := Ideal) x0 w1 B1 w2 B2 (ix2 p j) = Cert.Spec.mlpRow (fun i : Fin 132 => x0 (ix2 p i)) (fun (i : Fin 132) (k : Fin 256) => w1 (ix2 i k)) (fun k : Fin 256 => B1 (ix2 (0 : Fin 1) k)) (fun (k : Fin 256) (j : Fin 512) => w2 (ix2 k j)) (fun j : Fin 512 => B2 (ix2 (0 : Fin 1) j)) j :=
  pay1_raw x0 w1 B1 w2 B2 p j

/-! ## A bias vector viewed as one row -/

/-- A vector of 64 numbers viewed as a `[1,64]` array reads, at `(0, k)`, the vector at `k`. -/
theorem bias64 (b : FVec Ideal S64 .f32) (k : Fin 64) :
    shapeCast S1x64 b Facts₀.shapeCasts_S64_S1x64 (ix2 (0 : Fin 1) k) = b (ix1 k) :=
  shapeCast_a_1a_apply b _ 0 k
/-- The same for 128 numbers. -/
theorem bias128 (b : FVec Ideal S128 .f32) (k : Fin 128) :
    shapeCast S1x128 b Facts₀.shapeCasts_S128_S1x128 (ix2 (0 : Fin 1) k) = b (ix1 k) :=
  shapeCast_a_1a_apply b _ 0 k
/-- The same for 256 numbers. -/
theorem bias256 (b : FVec Ideal S256 .f32) (k : Fin 256) :
    shapeCast S1x256 b Facts₀.shapeCasts_S256_S1x256 (ix2 (0 : Fin 1) k) = b (ix1 k) :=
  shapeCast_a_1a_apply b _ 0 k
/-- The same for 512 numbers. -/
theorem bias512 (b : FVec Ideal S512 .f32) (k : Fin 512) :
    shapeCast S1x512 b Facts₀.shapeCasts_S512_S1x512 (ix2 (0 : Fin 1) k) = b (ix1 k) :=
  shapeCast_a_1a_apply b _ 0 k

end Cert.KernelIdeal.Pay

end
-- ==== Proof.KI.Host.lean ====
/-
  The kernel program's two stretches of array operations outside the tiled computations, read as pure terms.

  Before the first tiled computation the program takes the two rows of the edge list apart, wraps negative targets
  round, gathers the target node's two features for every edge and sets them beside the edge's own two features; it
  also views the first layer pair's bias vectors as one-row arrays. Between the two tiled computations it sums the edge
  results into their source nodes, divides by the number of edges at each node (at least one), looks up each node's
  two features of its group, and sets node features, mean and group features side by side; and again views two bias
  vectors as one-row arrays. Each theorem says that the array the stretch leaves at a reference is the named term of
  the arrays it started from.
-/
import proofs.«167135_j47966194762017_1_alg».proof.Proof.Gen.KernelIdeal.Launch
import proofs.«167135_j47966194762017_1_alg».proof.Proof.Spec
import Idealize.ShloMosaic.Lib.StableHlo.Run

noncomputable section

namespace Cert.KernelIdeal.Host

open Cert.KernelIdeal Cert.KernelIdeal.Gen Idealize.ShloMosaic Idealize.ShloMosaic.TcCoe Idealize.SL.Sem

variable {F : FTy → Type} [FloatOps F]

/-! ## The terms -/

/-- The edges' source nodes: the first row of the edge list, as a vector. -/
def rowIdx (a1 : IVec S2x600000 32) : IVec S600000 32 :=
  shapeCast S600000 (extractStridedSlice S1x600000 ![0, 0] a1 slices_S2x600000_S1x600000_0_0) shapeCasts_S1x600000_S600000

/-- The edges' target nodes: the second row of the edge list, as a vector. -/
def colIdx (a1 : IVec S2x600000 32) : IVec S600000 32 :=
  shapeCast S600000 (extractStridedSlice S1x600000 ![1, 0] a1 slices_S2x600000_S1x600000_1_0) shapeCasts_S1x600000_S600000

/-- The edge computation's input: for every edge the two features of its target node (a negative target counted from
    the end) beside the edge's own two features. -/
def eIn (a0 : FVec F S100000x2 .f32) (a1 : IVec S2x600000 32) (a2 : FVec F S600000x2 .f32) : FVec F S600000x4 .f32 :=
  concatenate S600000x4 1
    [⟨S600000x2, Host.gather gather_S100000x2_S600000x1_S600000x2_1_0_n_n_0_1_12 a0
        (broadcastInDim S600000x1 ![0] bcast_S600000_S600000x1_0
          (select (cmpi .slt (colIdx a1) (broadcastInDim S600000 ![] bcast_S_S600000 (constantI S_ 32 0#32)))
            (addi (colIdx a1) (broadcastInDim S600000 ![] bcast_S_S600000 (constantI S_ 32 100000#32)))
            (colIdx a1)))⟩,
     ⟨S600000x2, a2⟩]
    concatenates_S600000x2_S600000x2_S600000x4_d1

/-- The node computation's input: a node's two features, the mean over its edges of the edge results `H` (the sum
    into source nodes `row` divided by the number of such edges, at least one), and the two features of its group
    (a negative group counted from the end), side by side. -/
def nodeIn (a0 : FVec F S100000x2 .f32) (row : IVec S600000 32) (a3 : FVec F S512x2 .f32) (a4 : IVec S100000 32)
    (H : FVec F S600000x128 .f32) : FVec F S100000x132 .f32 :=
  concatenate S100000x132 1
    [⟨S100000x2, a0⟩,
     ⟨S100000x128, Host.divf
        (Host.scatterAdd scatter_S100000x128_S600000x1_S600000x128_1_0_0_1
          (broadcastInDim S100000x128 ![] bcast_S_S100000x128 (constant S_ .f32 0x00000000#32))
          (broadcastInDim S600000x1 ![0] bcast_S600000_S600000x1_0 row) H)
        (broadcastInDim S100000x128 ![0, 1] bcast_S100000x1_S100000x128_0_1
          (maximumf
            (Host.scatterAdd scatter_S100000x1_S600000x1_S600000x1_1_0_0_1
              (broadcastInDim S100000x1 ![] bcast_S_S100000x1 (constant S_ .f32 0x00000000#32))
              (broadcastInDim S600000x1 ![0] bcast_S600000_S600000x1_0 row)
              (broadcastInDim S600000x1 ![] bcast_S_S600000x1 (constant S_ .f32 0x3F800000#32)))
            (broadcastInDim S100000x1 ![] bcast_S_S100000x1 (constant S_ .f32 0x3F800000#32))))⟩,
     ⟨S100000x2, Host.gather gather_S512x2_S100000x1_S100000x2_1_0_n_n_0_1_12 a3
        (broadcastInDim S100000x1 ![0] bcast_S100000_S100000x1_0
          (select (cmpi .slt a4 (broadcastInDim S100000 ![] bcast_S_S100000 (constantI S_ 32 0#32)))
            (addi a4 (broadcastInDim S100000 ![] bcast_S_S100000 (constantI S_ 32 512#32)))
            a4))⟩]
    concatenates_S100000x2_S100000x128_S100000x2_S100000x132_d1

/-! ## What the first stretch leaves -/

theorem host0_v1 (V : Valuation τ sig (Elt F)) :
    StableHlo.after hostOps0 V (Proc.devRef .tc main_v1) = rowIdx (V (Proc.devRef .tc main_arg1)) := by
  after_results
  rfl

theorem host0_v11 (V : Valuation τ sig (Elt F)) :
    StableHlo.after hostOps0 V (Proc.devRef .tc main_v11)
      = eIn (V (Proc.devRef .tc main_arg0)) (V (Proc.devRef .tc main_arg1)) (V (Proc.devRef .tc main_arg2)) := by
  after_results
  rfl

theorem host0_v12 (V : Valuation τ sig (Elt F)) :
    StableHlo.after hostOps0 V (Proc.devRef .tc main_v12) = shapeCast S1x64 (V (Proc.devRef .tc main_arg6)) shapeCasts_S64_S1x64 := by
  after_results
  rfl

theorem host0_v13 (V : Valuation τ sig (Elt F)) :
    StableHlo.after hostOps0 V (Proc.devRef .tc main_v13) = shapeCast S1x128 (V (Proc.devRef .tc main_arg8)) shapeCasts_S128_S1x128 := by
  after_results
  rfl

/-! ## What the second stretch leaves -/

theorem host1_v33 (V : Valuation τ sig (Elt F)) :
    StableHlo.after hostOps1 V (Proc.devRef .tc main_v33)
      = nodeIn (V (Proc.devRef .tc main_arg0)) (V (Proc.devRef .tc main_v1)) (V (Proc.devRef .tc main_arg3))
          (V (Proc.devRef .tc main_arg4)) (V (Proc.devRef .tc main_v14)) := by
  after_results_simp
  rfl

theorem host1_v34 (V : Valuation τ sig (Elt F)) :
    StableHlo.after hostOps1 V (Proc.devRef .tc main_v34) = shapeCast S1x256 (V (Proc.devRef .tc main_arg10)) shapeCasts_S256_S1x256 := by
  after_results
  rfl

theorem host1_v35 (V : Valuation τ sig (Elt F)) :
    StableHlo.after hostOps1 V (Proc.devRef .tc main_v35) = shapeCast S1x512 (V (Proc.devRef .tc main_arg12)) shapeCasts_S512_S1x512 := by
  after_results
  rfl

/-! ## The whole result as one term -/

/-- What the kernel program computes at the ideal instance, as a term of its thirteen arguments: the two-layer row
    function over the edge inputs, its results averaged into the nodes and set beside the node and group features,
    and the second two-layer row function over those. -/
def kTerm (a0 : FVec Ideal S100000x2 .f32) (a1 : IVec S2x600000 32) (a2 : FVec Ideal S600000x2 .f32)
    (a3 : FVec Ideal S512x2 .f32) (a4 : IVec S100000 32) (a5 : FVec Ideal S4x64 .f32) (a6 : FVec Ideal S64 .f32)
    (a7 : FVec Ideal S64x128 .f32) (a8 : FVec Ideal S128 .f32) (a9 : FVec Ideal S132x256 .f32)
    (a10 : FVec Ideal S256 .f32) (a11 : FVec Ideal S256x512 .f32) (a12 : FVec Ideal S512 .f32) :
    FVec Ideal S100000x512 .f32 :=
  Cert.Spec.mlp (nodeIn a0 (rowIdx a1) a3 a4 (Cert.Spec.mlp (eIn a0 a1 a2) a5 a6 a7 a8)) a9 a10 a11 a12

end Cert.KernelIdeal.Host

end
-- ==== Proof.KI.Value.lean ====
/-
  What the two kernel regions leave in their output arrays, at the ideal instance, as whole-array functions.

  A region's output array ends, block by block, at what the grid points wrote back. Point `t` of the first region
  writes rows `3000·t … 3000·t + 2999` of the output, and what it writes there is the two-layer perceptron of the same
  rows of the input array (the weights and biases are the same block at every point); the 200 points' blocks tile the
  600000 rows. So the array ends at the perceptron of the whole input array. The second region is the same with 50
  points of 2000 rows. A bias arrives as a `1 × n` array; its one row is read as a vector.
-/
import proofs.«167135_j47966194762017_1_alg».proof.Proof.KI.Run
import proofs.«167135_j47966194762017_1_alg».proof.Proof.Pay
import proofs.«167135_j47966194762017_1_alg».proof.Proof.KI.Host
import proofs.«167135_j47966194762017_1_alg».proof.Proof.Spec
import Idealize.ShloMosaic.Lib.Pipeline.Value
import Idealize.ShloMosaic.Lib.ValueIdx

set_option maxRecDepth 16384
set_option maxHeartbeats 400000

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- The one row of a `1 × n` array, as a vector. -/
def rowOf {n : ℕ} (B : FVec Ideal ⟨2, ![1, n]⟩ .f32) : FVec Ideal ⟨1, ![n]⟩ .f32 :=
  fun k => B (ix2 (0 : Fin 1) (⟨(k 0).val, (k 0).isLt⟩ : Fin n))

theorem rowOf_apply {n : ℕ} (B : FVec Ideal ⟨2, ![1, n]⟩ .f32) (k : Fin n) : rowOf B (ix1 k) = B (ix2 (0 : Fin 1) k) := rfl

/-- Two rows through the perceptron agree when their data agree entry by entry. -/
theorem mlpRow_congr {a h o : ℕ} {x x' : Fin a → EReal} {W1 W1' : Fin a → Fin h → EReal} {b1 b1' : Fin h → EReal}
    {W2 W2' : Fin h → Fin o → EReal} {b2 b2' : Fin o → EReal} {j j' : Fin o}
    (hx : ∀ i, x i = x' i) (h1 : ∀ i k, W1 i k = W1' i k) (hb1 : ∀ k, b1 k = b1' k)
    (h2 : ∀ k j, W2 k j = W2' k j) (hb2 : ∀ j, b2 j = b2' j) (hj : j = j') :
    Cert.Spec.mlpRow x W1 b1 W2 b2 j = Cert.Spec.mlpRow x' W1' b1' W2' b2' j' := by
  subst hj
  simp only [Cert.Spec.mlpRow, hx, h1, hb1, h2, hb2]

variable (V : (c : Dev nD) → (b : Ref sig .tc) → Buf (Elt Ideal) ((c : Thread nD τ).loc b))

/-! ## The first region -/

/-- The first region's output array as one function of its input arrays. -/
def G0 (c : Dev nD) : FVec Ideal S600000x128 .f32 :=
  Cert.Spec.mlp (n := 600000) (a := 4) (h := 64) (o := 128) (V c main_v11) (V c main_arg5) (rowOf (n := 64) (V c main_v12)) (V c main_arg7) (rowOf (n := 128) (V c main_v13))

/-- The index maps, decided over the grid: the input rows move with the output rows, everything else stays at block 0. -/
theorem idx_facts0 : ∀ t : Fin cfg0.N, win0_0.index t (0 : Fin 2) = win0_5.index t (0 : Fin 2)
    ∧ win0_0.index t (1 : Fin 2) = 0 ∧ win0_5.index t (1 : Fin 2) = 0 ∧ win0_5.index t (0 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point `t` writes back is block `t` of `G0`. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S3000x4) hz, View.ld_unit_zero (S := S4x64) hz, View.ld_unit_zero (S := S1x64) hz,
    View.ld_unit_zero (S := S64x128) hz, View.ld_unit_zero (S := S1x128) hz]
  obtain ⟨e0, e1, e2, e3, e4, e5, e6, e7, e8, e9, e10, e11⟩ := idx_facts0 t
  have ht : t.val < 200 := lt_of_lt_of_eq t.isLt N_0
  funext j
  obtain ⟨p, q, rfl⟩ : ∃ (p : Fin 3000) (q : Fin 128), j = ix2 p q := ⟨j 0, j 1, eq_ix2 j⟩
  obtain ⟨r, hr⟩ : ∃ r : Fin 600000, r.val = t.val * 3000 + p.val := ⟨⟨t.val * 3000 + p.val, by omega⟩, rfl⟩
  have hy : ((cfg0.win 5).blk t).view.emb (ix2 p q) = ix2 r q := by
    funext a; apply Fin.ext
    match a with
    | ⟨0, _⟩ => show win0_5.index t (0 : Fin 2) * 3000 + 1 * p.val = r.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = G0 V c (((cfg0.win 5).blk t).view.emb (ix2 p q))
  refine (Cert.KernelIdeal.Pay.pay0_eq (iblk0 V c 0 t) (iblk0 V c 1 t) (iblk0 V c 2 t) (iblk0 V c 3 t) (iblk0 V c 4 t) p q).trans ?_
  rw [hy]
  unfold G0
  rw [Cert.Spec.mlp_apply]
  refine mlpRow_congr (fun i => ?_) (fun i k => ?_) (fun k => ?_) (fun k j => ?_) (fun j => ?_) rfl
  · show V c main_v11 (((cfg0.win 0).blk t).view.emb (ix2 p i)) = V c main_v11 (ix2 r i)
    refine congrArg (V c main_v11) (funext fun a => Fin.ext ?_)
    match a with
    | ⟨0, _⟩ => show win0_0.index t (0 : Fin 2) * 3000 + 1 * p.val = r.val; omega
    | ⟨1, _⟩ => show win0_0.index t (1 : Fin 2) * 4 + 1 * i.val = i.val; omega
  · show V c main_arg5 (((cfg0.win 1).blk t).view.emb (ix2 i k)) = V c main_arg5 (ix2 i k)
    refine congrArg (V c main_arg5) (funext fun a => Fin.ext ?_)
    match a with
    | ⟨0, _⟩ => show win0_1.index t (0 : Fin 2) * 4 + 1 * i.val = i.val; omega
    | ⟨1, _⟩ => show win0_1.index t (1 : Fin 2) * 64 + 1 * k.val = k.val; omega
  · show V c main_v12 (((cfg0.win 2).blk t).view.emb (ix2 (0 : Fin 1) k)) = rowOf (n := 64) (V c main_v12) (ix1 k)
    rw [rowOf_apply]
    refine congrArg (V c main_v12) (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  · show V c main_arg7 (((cfg0.win 3).blk t).view.emb (ix2 k j)) = V c main_arg7 (ix2 k j)
    refine congrArg (V c main_arg7) (funext fun a => Fin.ext ?_)
    match a with
    | ⟨0, _⟩ => show win0_3.index t (0 : Fin 2) * 64 + 1 * k.val = k.val; omega
    | ⟨1, _⟩ => show win0_3.index t (1 : Fin 2) * 128 + 1 * j.val = j.val; omega
  · show V c main_v13 (((cfg0.win 4).blk t).view.emb (ix2 (0 : Fin 1) j)) = rowOf (n := 128) (V c main_v13) (ix1 j)
    rw [rowOf_apply]
    refine congrArg (V c main_v13) (funext fun a => Fin.ext ?_)
    match a with
    | ⟨0, _⟩ => show win0_4.index t (0 : Fin 2) * 1 + 1 * 0 = 0; omega
    | ⟨1, _⟩ => show win0_4.index t (1 : Fin 2) * 128 + 1 * j.val = j.val; omega

/-- An index of the output array is in point `t`'s block iff each coordinate is in the block's range. -/
theorem mem_blk0 (t : Fin cfg0.N) (i : S600000x128.Idx) :
    i ∈ ((cfg0.win 5).blk t).view.set ↔ ∀ a : Fin 2, win0_5.index t a * S3000x128.size a ≤ (i a).val ∧ (i a).val < win0_5.index t a * S3000x128.size a + S3000x128.size a := by
  show i ∈ ((View.whole main_v14).slice (win0_5.rect t)).set ↔ _
  rw [View.set_slice_whole, Rect.mem_set_unit]
  exact Iff.rfl

/-- Every row is in the block of the point numbered by its quotient by 3000. -/
theorem cover0 (i : S600000x128.Idx) : ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 200 := N_0
  refine ⟨⟨(i 0).val / 3000, by rw [hN]; omega⟩, flush0_5 _, ?_⟩
  rw [mem_blk0]
  obtain ⟨-, -, e2, e3, -⟩ := idx_facts0 ⟨(i 0).val / 3000, by rw [hN]; omega⟩
  intro a
  match a with
  | ⟨0, _⟩ =>
    show win0_5.index _ (0 : Fin 2) * 3000 ≤ (i 0).val ∧ (i 0).val < win0_5.index _ (0 : Fin 2) * 3000 + 3000
    rw [e3]; show (i 0).val / 3000 * 3000 ≤ (i 0).val ∧ (i 0).val < (i 0).val / 3000 * 3000 + 3000; omega
  | ⟨1, _⟩ =>
    show win0_5.index _ (1 : Fin 2) * 128 ≤ (i 1).val ∧ (i 1).val < win0_5.index _ (1 : Fin 2) * 128 + 128
    rw [e2]; omega

/-- The first region's output array ends at the perceptron of its input arrays. -/
theorem final0 (c : Dev nD) : (dat0 V c).arrAt 5 cfg0.N = G0 V c :=
  (dat0 V c).arrAt_eq_of_cover 5 (G0 V c) (fun t _ => flushed0_eq V c t) (cover0)

/-! ## The second region -/

/-- The second region's output array as one function of its input arrays. -/
def G1 (c : Dev nD) : FVec Ideal S100000x512 .f32 :=
  Cert.Spec.mlp (n := 100000) (a := 132) (h := 256) (o := 512) (V c main_v33) (V c main_arg9) (rowOf (n := 256) (V c main_v34)) (V c main_arg11) (rowOf (n := 512) (V c main_v35))

/-- The index maps, decided over the grid: the input rows move with the output rows, everything else stays at block 0. -/
theorem idx_facts1 : ∀ t : Fin cfg1.N, win1_0.index t (0 : Fin 2) = win1_5.index t (0 : Fin 2)
    ∧ win1_0.index t (1 : Fin 2) = 0 ∧ win1_5.index t (1 : Fin 2) = 0 ∧ win1_5.index t (0 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of `G1`. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x132) hz, View.ld_unit_zero (S := S132x256) hz, View.ld_unit_zero (S := S1x256) hz,
    View.ld_unit_zero (S := S256x512) hz, View.ld_unit_zero (S := S1x512) hz]
  obtain ⟨e0, e1, e2, e3, e4, e5, e6, e7, e8, e9, e10, e11⟩ := idx_facts1 t
  have ht : t.val < 50 := lt_of_lt_of_eq t.isLt N_1
  funext j
  obtain ⟨p, q, rfl⟩ : ∃ (p : Fin 2000) (q : Fin 512), j = ix2 p q := ⟨j 0, j 1, eq_ix2 j⟩
  obtain ⟨r, hr⟩ : ∃ r : Fin 100000, r.val = t.val * 2000 + p.val := ⟨⟨t.val * 2000 + p.val, by omega⟩, rfl⟩
  have hy : ((cfg1.win 5).blk t).view.emb (ix2 p q) = ix2 r q := by
    funext a; apply Fin.ext
    match a with
    | ⟨0, _⟩ => show win1_5.index t (0 : Fin 2) * 2000 + 1 * p.val = r.val; omega
    | ⟨1, _⟩ => show win1_5.index t (1 : Fin 2) * 512 + 1 * q.val = q.val; omega
  show k1_pay1 (F := Ideal) (iblk1 V c 0 t) (iblk1 V c 1 t) (iblk1 V c 2 t) (iblk1 V c 3 t) (iblk1 V c 4 t) (ix2 p q)
    = G1 V c (((cfg1.win 5).blk t).view.emb (ix2 p q))
  refine (Cert.KernelIdeal.Pay.pay1_eq (iblk1 V c 0 t) (iblk1 V c 1 t) (iblk1 V c 2 t) (iblk1 V c 3 t) (iblk1 V c 4 t) p q).trans ?_
  rw [hy]
  unfold G1
  rw [Cert.Spec.mlp_apply]
  refine mlpRow_congr (fun i => ?_) (fun i k => ?_) (fun k => ?_) (fun k j => ?_) (fun j => ?_) rfl
  · show V c main_v33 (((cfg1.win 0).blk t).view.emb (ix2 p i)) = V c main_v33 (ix2 r i)
    refine congrArg (V c main_v33) (funext fun a => Fin.ext ?_)
    match a with
    | ⟨0, _⟩ => show win1_0.index t (0 : Fin 2) * 2000 + 1 * p.val = r.val; omega
    | ⟨1, _⟩ => show win1_0.index t (1 : Fin 2) * 132 + 1 * i.val = i.val; omega
  · show V c main_arg9 (((cfg1.win 1).blk t).view.emb (ix2 i k)) = V c main_arg9 (ix2 i k)
    refine congrArg (V c main_arg9) (funext fun a => Fin.ext ?_)
    match a with
    | ⟨0, _⟩ => show win1_1.index t (0 : Fin 2) * 132 + 1 * i.val = i.val; omega
    | ⟨1, _⟩ => show win1_1.index t (1 : Fin 2) * 256 + 1 * k.val = k.val; omega
  · show V c main_v34 (((cfg1.win 2).blk t).view.emb (ix2 (0 : Fin 1) k)) = rowOf (n := 256) (V c main_v34) (ix1 k)
    rw [rowOf_apply]
    refine congrArg (V c main_v34) (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  · show V c main_arg11 (((cfg1.win 3).blk t).view.emb (ix2 k j)) = V c main_arg11 (ix2 k j)
    refine congrArg (V c main_arg11) (funext fun a => Fin.ext ?_)
    match a with
    | ⟨0, _⟩ => show win1_3.index t (0 : Fin 2) * 256 + 1 * k.val = k.val; omega
    | ⟨1, _⟩ => show win1_3.index t (1 : Fin 2) * 512 + 1 * j.val = j.val; omega
  · show V c main_v35 (((cfg1.win 4).blk t).view.emb (ix2 (0 : Fin 1) j)) = rowOf (n := 512) (V c main_v35) (ix1 j)
    rw [rowOf_apply]
    refine congrArg (V c main_v35) (funext fun a => Fin.ext ?_)
    match a with
    | ⟨0, _⟩ => show win1_4.index t (0 : Fin 2) * 1 + 1 * 0 = 0; omega
    | ⟨1, _⟩ => show win1_4.index t (1 : Fin 2) * 512 + 1 * j.val = j.val; omega

/-- An index of the output array is in point `t`'s block iff each coordinate is in the block's range. -/
theorem mem_blk1 (t : Fin cfg1.N) (i : S100000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v36).slice (win1_5.rect t)).set ↔ _
  rw [View.set_slice_whole, Rect.mem_set_unit]
  exact Iff.rfl

/-- Every row is in the block of the point numbered by its quotient by 2000. -/
theorem cover1 (i : S100000x512.Idx) : ∃ t : Fin cfg1.N, (cfg1.win 5).flush t = true ∧ i ∈ ((cfg1.win 5).blk t).view.set := by
  have hi0 : (i 0).val < 100000 := (i 0).isLt
  have hi1 : (i 1).val < 512 := (i 1).isLt
  have hN : cfg1.N = 50 := N_1
  refine ⟨⟨(i 0).val / 2000, by rw [hN]; omega⟩, flush1_5 _, ?_⟩
  rw [mem_blk1]
  obtain ⟨-, -, e2, e3, -⟩ := idx_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e3]; show (i 0).val / 2000 * 2000 ≤ (i 0).val ∧ (i 0).val < (i 0).val / 2000 * 2000 + 2000; omega
  | ⟨1, _⟩ =>
    show win1_5.index _ (1 : Fin 2) * 512 ≤ (i 1).val ∧ (i 1).val < win1_5.index _ (1 : Fin 2) * 512 + 512
    rw [e2]; omega

/-- The second region's output array ends at the perceptron of its input arrays. -/
theorem final1 (c : Dev nD) : (dat1 V c).arrAt 5 cfg1.N = G1 V c :=
  (dat1 V c).arrAt_eq_of_cover 5 (G1 V c) (fun t _ => flushed1_eq V c t) (cover1)

/-! ## The program's result -/

variable (m : (ℓ : Loc nD τ sig) → Buf (Elt Ideal) ℓ)

/-- A bias reshaped to one row by the host, read back as a vector, is the bias. -/
theorem rowOf_cast64 (b : FVec Ideal S64 .f32) : rowOf (n := 64) (shapeCast S1x64 b shapeCasts_S64_S1x64) = b := by
  funext k; rw [eq_ix1 k]; exact (rowOf_apply _ _).trans (Cert.KernelIdeal.Pay.bias64 b (k 0))
theorem rowOf_cast128 (b : FVec Ideal S128 .f32) : rowOf (n := 128) (shapeCast S1x128 b shapeCasts_S128_S1x128) = b := by
  funext k; rw [eq_ix1 k]; exact (rowOf_apply _ _).trans (Cert.KernelIdeal.Pay.bias128 b (k 0))
theorem rowOf_cast256 (b : FVec Ideal S256 .f32) : rowOf (n := 256) (shapeCast S1x256 b shapeCasts_S256_S1x256) = b := by
  funext k; rw [eq_ix1 k]; exact (rowOf_apply _ _).trans (Cert.KernelIdeal.Pay.bias256 b (k 0))
theorem rowOf_cast512 (b : FVec Ideal S512 .f32) : rowOf (n := 512) (shapeCast S1x512 b shapeCasts_S512_S1x512) = b := by
  funext k; rw [eq_ix1 k]; exact (rowOf_apply _ _).trans (Cert.KernelIdeal.Pay.bias512 b (k 0))

/-- A buffer the first host stretch does not write holds its launch contents when the first region is entered. -/
theorem B1_keep (c : Dev nD) (r : Ref sig .tc) (h0 : r ∉ hostOps0_W) : B1 m c (Proc.devRef .tc r) = m ((c : Thread nD τ).loc r) :=
  (StableHlo.after_of_writes_sub hostOps0 _ hostOps0_writes h0).trans rfl
/-- A buffer the first host stretch does not write and that is no array of the first region holds its launch contents
    after the first region. -/
theorem B2_keep (c : Dev nD) (r : Ref sig .tc) (h0 : r ∉ hostOps0_W) (ha0 : ∀ w, Pipeline.arrRef spec0 w ≠ r) :
    B2 m c (Proc.devRef .tc r) = m ((c : Thread nD τ).loc r) :=
  (B2_of_ne m c r ha0).trans (B1_keep m c r h0)
/-- A buffer neither host stretch writes and that is no array of the first region holds its launch contents when the
    second region is entered. -/
theorem B3_keep (c : Dev nD) (r : Ref sig .tc) (h0 : r ∉ hostOps0_W) (h1 : r ∉ hostOps1_W) (ha0 : ∀ w, Pipeline.arrRef spec0 w ≠ r) :
    B3 m c (Proc.devRef .tc r) = m ((c : Thread nD τ).loc r) :=
  (StableHlo.after_of_writes_sub hostOps1 _ hostOps1_writes h1).trans (B2_keep m c r h0 ha0)

/-- What the first region leaves in its output array: the first perceptron of the edge inputs. -/
theorem B2_v14 (c : Dev nD) :
    B2 m c (Proc.devRef .tc main_v14)
      = Cert.Spec.mlp (n := 600000) (a := 4) (h := 64) (o := 128)
          (Cert.KernelIdeal.Host.eIn (F := Ideal) (m ((c : Thread nD τ).loc main_arg0)) (m ((c : Thread nD τ).loc main_arg1)) (m ((c : Thread nD τ).loc main_arg2)))
          (m ((c : Thread nD τ).loc main_arg5)) (m ((c : Thread nD τ).loc main_arg6)) (m ((c : Thread nD τ).loc main_arg7)) (m ((c : Thread nD τ).loc main_arg8)) := by
  refine (B2_arr m c 5).trans ((final0 (in0 m) c).trans ?_)
  unfold G0
  have e11 : in0 m c main_v11 = Cert.KernelIdeal.Host.eIn (F := Ideal) (m ((c : Thread nD τ).loc main_arg0)) (m ((c : Thread nD τ).loc main_arg1)) (m ((c : Thread nD τ).loc main_arg2)) :=
    Cert.KernelIdeal.Host.host0_v11 (B0 m c)
  have e5 : in0 m c main_arg5 = m ((c : Thread nD τ).loc main_arg5) := B1_keep m c main_arg5 (by decide)
  have e7 : in0 m c main_arg7 = m ((c : Thread nD τ).loc main_arg7) := B1_keep m c main_arg7 (by decide)
  have e12 : in0 m c main_v12 = shapeCast S1x64 (m ((c : Thread nD τ).loc main_arg6)) shapeCasts_S64_S1x64 :=
    Cert.KernelIdeal.Host.host0_v12 (B0 m c)
  have e13 : in0 m c main_v13 = shapeCast S1x128 (m ((c : Thread nD τ).loc main_arg8)) shapeCasts_S128_S1x128 :=
    Cert.KernelIdeal.Host.host0_v13 (B0 m c)
  rw [e11, e5, e7, e12, e13, rowOf_cast64, rowOf_cast128]

/-- The program's result: the second perceptron of the node inputs, which hold the first perceptron's output
    averaged over each node's incoming edges. -/
theorem kernel_value (c : Dev nD) :
    B4 m c (Proc.devRef .tc main_v36)
      = Cert.KernelIdeal.Host.kTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) := by
  refine (B4_arr m c 5).trans ((final1 (in1 m) c).trans ?_)
  unfold G1 Cert.KernelIdeal.Host.kTerm
  have e33 : in1 m c main_v33 = Cert.KernelIdeal.Host.nodeIn (F := Ideal) (m ((c : Thread nD τ).loc main_arg0)) (Cert.KernelIdeal.Host.rowIdx (m ((c : Thread nD τ).loc main_arg1)))
      (m ((c : Thread nD τ).loc main_arg3)) (m ((c : Thread nD τ).loc main_arg4))
      (Cert.Spec.mlp (n := 600000) (a := 4) (h := 64) (o := 128)
          (Cert.KernelIdeal.Host.eIn (F := Ideal) (m ((c : Thread nD τ).loc main_arg0)) (m ((c : Thread nD τ).loc main_arg1)) (m ((c : Thread nD τ).loc main_arg2)))
          (m ((c : Thread nD τ).loc main_arg5)) (m ((c : Thread nD τ).loc main_arg6)) (m ((c : Thread nD τ).loc main_arg7)) (m ((c : Thread nD τ).loc main_arg8))) := by
    refine (Cert.KernelIdeal.Host.host1_v33 (B2 m c)).trans ?_
    rw [B2_keep m c main_arg0 (by decide) (by decide), B2_keep m c main_arg3 (by decide) (by decide),
      B2_keep m c main_arg4 (by decide) (by decide), B2_v14 m c,
      show B2 m c (Proc.devRef .tc main_v1) = Cert.KernelIdeal.Host.rowIdx (m ((c : Thread nD τ).loc main_arg1)) from
        (B2_of_ne m c main_v1 (by decide)).trans (Cert.KernelIdeal.Host.host0_v1 (B0 m c))]
  have e9 : in1 m c main_arg9 = m ((c : Thread nD τ).loc main_arg9) := B3_keep m c main_arg9 (by decide) (by decide) (by decide)
  have e11 : in1 m c main_arg11 = m ((c : Thread nD τ).loc main_arg11) := B3_keep m c main_arg11 (by decide) (by decide) (by decide)
  have e34 : in1 m c main_v34 = shapeCast S1x256 (m ((c : Thread nD τ).loc main_arg10)) shapeCasts_S256_S1x256 :=
    (Cert.KernelIdeal.Host.host1_v34 (B2 m c)).trans (by rw [B2_keep m c main_arg10 (by decide) (by decide)])
  have e35 : in1 m c main_v35 = shapeCast S1x512 (m ((c : Thread nD τ).loc main_arg12)) shapeCasts_S512_S1x512 :=
    (Cert.KernelIdeal.Host.host1_v35 (B2 m c)).trans (by rw [B2_keep m c main_arg12 (by decide) (by decide)])
  rw [e33, e9, e11, e34, e35, rowOf_cast256, rowOf_cast512]

/-- Every weakly fair execution of the idealized kernel program terminates with the result array at the composed term of
    the arguments and the arguments as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v36) = Cert.KernelIdeal.Host.kTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v36 (by decide))).trans (kernel_value m c),
     (h c _ (mem_uc main_arg0 (by decide))).trans (B4_main_arg0 m c),
     (h c _ (mem_uc main_arg1 (by decide))).trans (B4_main_arg1 m c),
     (h c _ (mem_uc main_arg2 (by decide))).trans (B4_main_arg2 m c),
     (h c _ (mem_uc main_arg3 (by decide))).trans (B4_main_arg3 m c),
     (h c _ (mem_uc main_arg4 (by decide))).trans (B4_main_arg4 m c),
     (h c _ (mem_uc main_arg5 (by decide))).trans (B4_main_arg5 m c),
     (h c _ (mem_uc main_arg6 (by decide))).trans (B4_main_arg6 m c),
     (h c _ (mem_uc main_arg7 (by decide))).trans (B4_main_arg7 m c),
     (h c _ (mem_uc main_arg8 (by decide))).trans (B4_main_arg8 m c),
     (h c _ (mem_uc main_arg9 (by decide))).trans (B4_main_arg9 m c),
     (h c _ (mem_uc main_arg10 (by decide))).trans (B4_main_arg10 m c),
     (h c _ (mem_uc main_arg11 (by decide))).trans (B4_main_arg11 m c),
     (h c _ (mem_uc main_arg12 (by decide))).trans (B4_main_arg12 m c)⟩) (run_all m ρ)

end Cert.KernelIdeal.Hand

end
-- ==== Proof.RefValue.lean ====
import proofs.«167135_j47966194762017_1_alg».proof.Proof.Gen.ReferenceIdeal.Read
import proofs.«167135_j47966194762017_1_alg».proof.Proof.Spec
import Idealize.ShloMosaic.Lib.Pipeline.Value
import Idealize.ShloMosaic.Lib.ValueIdx
import Idealize.ShloMosaic.PureOps.Ideal.Laws
/-
  The reference's two perceptrons are the specification.

  Each perceptron of the reference is a chain of whole-array operations: a product with the first weight matrix, the
  first bias repeated down the rows and added, a maximum with the zero constant repeated over the array, a product
  with the second weight matrix, and the second bias repeated down the rows and added. Read at one row `r` and one
  column `j`, a product is the sum over the contracted coordinate of the row's entries times the column's, a repeated
  bias is the bias's entry for the column, the repeated zero is zero, and the sum and the maximum act entry by entry.
  Put together this is, entry for entry, the row function `Cert.Spec.mlpRow` of row `r`, which is what
  `Cert.Spec.mlp` is. The array the perceptron is applied to stays a variable, so the two statements rewrite the
  reference's composed result term wherever these chains occur in it.
-/

noncomputable section

open scoped BigOperators

namespace Cert.ReferenceIdeal.RefValue

open Cert.ReferenceIdeal Cert.ReferenceIdeal.Gen Idealize.ShloMosaic Idealize.ShloMosaic.ValueIdx

/-- In the product of a `600000 × 4` array with a `4 × 64` array the left operand is read at the result's row … -/
theorem dot_4_64_apply_l0 (i : S600000x64.Idx) (q : dot_S600000x4_S4x64_S600000x64_1_0_0_1_n_n.contr.Idx) : (dot_S600000x4_S4x64_S600000x64_1_0_0_1_n_n.lhsIdx i q 0).val = (i 0).val := by
  unfold DotDims.lhsIdx
  rw [dif_neg (show ¬(0 : Fin S600000x4.rank) ∈ dot_S600000x4_S4x64_S600000x64_1_0_0_1_n_n.lhsBatch by decide), dif_pos (show (0 : Fin S600000x4.rank) ∈ dot_S600000x4_S4x64_S600000x64_1_0_0_1_n_n.lhsNonContracting by decide)]
  rfl
/-- … and the right operand at the result's column. -/
theorem dot_4_64_apply_r1 (i : S600000x64.Idx) (q : dot_S600000x4_S4x64_S600000x64_1_0_0_1_n_n.contr.Idx) : (dot_S600000x4_S4x64_S600000x64_1_0_0_1_n_n.rhsIdx i q 1).val = (i 1).val := by
  unfold DotDims.rhsIdx
  rw [dif_neg (show ¬(1 : Fin S4x64.rank) ∈ dot_S600000x4_S4x64_S600000x64_1_0_0_1_n_n.rhsBatch by decide), dif_pos (show (1 : Fin S4x64.rank) ∈ dot_S600000x4_S4x64_S600000x64_1_0_0_1_n_n.rhsNonContracting by decide)]
  rfl
/-- That product read at row `r`, column `j`: the sum over the contracted coordinate of the row's entries times the
    column's. -/
theorem dot_4_64_apply (L : FVec Ideal S600000x4 .f32) (R : FVec Ideal S4x64 .f32) (r : Fin 600000) (j : Fin 64) :
    Host.dotGeneral (F := Ideal) dot_S600000x4_S4x64_S600000x64_1_0_0_1_n_n none L R (ix2 r j) = ∑ k : Fin 4, L (ix2 r k) * R (ix2 k j) := by
  simp only [Host.dotGeneral]
  rw [Ideal.dotGeneral_apply, ← Equiv.sum_comp (contrEquiv1 dot_S600000x4_S4x64_S600000x64_1_0_0_1_n_n 4 rfl rfl).symm]
  refine Finset.sum_congr rfl fun k _ => ?_
  have hk := contrEquiv1_symm_val dot_S600000x4_S4x64_S600000x64_1_0_0_1_n_n 4 rfl rfl k
  have el : dot_S600000x4_S4x64_S600000x64_1_0_0_1_n_n.lhsIdx (ix2 r j) ((contrEquiv1 dot_S600000x4_S4x64_S600000x64_1_0_0_1_n_n 4 rfl rfl).symm k) = ix2 r k := funext fun a => Fin.ext (by
    match a with
    | ⟨0, _⟩ => exact dot_4_64_apply_l0 _ _
    | ⟨1, _⟩ => exact (dot_S600000x4_S4x64_S600000x64_1_0_0_1_n_n.lhsIdx_val_of_single rfl _ _).trans hk)
  have er : dot_S600000x4_S4x64_S600000x64_1_0_0_1_n_n.rhsIdx (ix2 r j) ((contrEquiv1 dot_S600000x4_S4x64_S600000x64_1_0_0_1_n_n 4 rfl rfl).symm k) = ix2 k j := funext fun a => Fin.ext (by
    match a with
    | ⟨0, _⟩ => exact (dot_S600000x4_S4x64_S600000x64_1_0_0_1_n_n.rhsIdx_val_of_single rfl _ _).trans hk
    | ⟨1, _⟩ => exact dot_4_64_apply_r1 _ _)
  rw [el, er]

/-- In the product of a `600000 × 64` array with a `64 × 128` array the left operand is read at the result's row … -/
theorem dot_64_128_apply_l0 (i : S600000x128.Idx) (q : dot_S600000x64_S64x128_S600000x128_1_0_0_1_n_n.contr.Idx) : (dot_S600000x64_S64x128_S600000x128_1_0_0_1_n_n.lhsIdx i q 0).val = (i 0).val := by
  unfold DotDims.lhsIdx
  rw [dif_neg (show ¬(0 : Fin S600000x64.rank) ∈ dot_S600000x64_S64x128_S600000x128_1_0_0_1_n_n.lhsBatch by decide), dif_pos (show (0 : Fin S600000x64.rank) ∈ dot_S600000x64_S64x128_S600000x128_1_0_0_1_n_n.lhsNonContracting by decide)]
  rfl
/-- … and the right operand at the result's column. -/
theorem dot_64_128_apply_r1 (i : S600000x128.Idx) (q : dot_S600000x64_S64x128_S600000x128_1_0_0_1_n_n.contr.Idx) : (dot_S600000x64_S64x128_S600000x128_1_0_0_1_n_n.rhsIdx i q 1).val = (i 1).val := by
  unfold DotDims.rhsIdx
  rw [dif_neg (show ¬(1 : Fin S64x128.rank) ∈ dot_S600000x64_S64x128_S600000x128_1_0_0_1_n_n.rhsBatch by decide), dif_pos (show (1 : Fin S64x128.rank) ∈ dot_S600000x64_S64x128_S600000x128_1_0_0_1_n_n.rhsNonContracting by decide)]
  rfl
/-- That product read at row `r`, column `j`: the sum over the contracted coordinate of the row's entries times the
    column's. -/
theorem dot_64_128_apply (L : FVec Ideal S600000x64 .f32) (R : FVec Ideal S64x128 .f32) (r : Fin 600000) (j : Fin 128) :
    Host.dotGeneral (F := Ideal) dot_S600000x64_S64x128_S600000x128_1_0_0_1_n_n none L R (ix2 r j) = ∑ k : Fin 64, L (ix2 r k) * R (ix2 k j) := by
  simp only [Host.dotGeneral]
  rw [Ideal.dotGeneral_apply, ← Equiv.sum_comp (contrEquiv1 dot_S600000x64_S64x128_S600000x128_1_0_0_1_n_n 64 rfl rfl).symm]
  refine Finset.sum_congr rfl fun k _ => ?_
  have hk := contrEquiv1_symm_val dot_S600000x64_S64x128_S600000x128_1_0_0_1_n_n 64 rfl rfl k
  have el : dot_S600000x64_S64x128_S600000x128_1_0_0_1_n_n.lhsIdx (ix2 r j) ((contrEquiv1 dot_S600000x64_S64x128_S600000x128_1_0_0_1_n_n 64 rfl rfl).symm k) = ix2 r k := funext fun a => Fin.ext (by
    match a with
    | ⟨0, _⟩ => exact dot_64_128_apply_l0 _ _
    | ⟨1, _⟩ => exact (dot_S600000x64_S64x128_S600000x128_1_0_0_1_n_n.lhsIdx_val_of_single rfl _ _).trans hk)
  have er : dot_S600000x64_S64x128_S600000x128_1_0_0_1_n_n.rhsIdx (ix2 r j) ((contrEquiv1 dot_S600000x64_S64x128_S600000x128_1_0_0_1_n_n 64 rfl rfl).symm k) = ix2 k j := funext fun a => Fin.ext (by
    match a with
    | ⟨0, _⟩ => exact (dot_S600000x64_S64x128_S600000x128_1_0_0_1_n_n.rhsIdx_val_of_single rfl _ _).trans hk
    | ⟨1, _⟩ => exact dot_64_128_apply_r1 _ _)
  rw [el, er]

/-- A bias vector of length `64`, made a `1 × 64` row and then repeated down `600000` rows, read at row `r`,
    column `k`, is its `k`-th entry. -/
theorem bias_64_apply (b : FVec Ideal S64 .f32) (r : Fin 600000) (k : Fin 64) :
    broadcastInDim S600000x64 ![0, 1] bcast_S1x64_S600000x64_0_1 (broadcastInDim S1x64 ![1] bcast_S64_S1x64_1 b) (ix2 r k)
      = b (ix1 k) := by
  refine (broadcastInDim_apply _ bcast_S1x64_S600000x64_0_1 _ (ix2 r k) (ix2 (⟨0, Nat.one_pos⟩ : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])).trans ?_
  exact broadcastInDim_apply _ bcast_S64_S1x64_1 b (ix2 (⟨0, Nat.one_pos⟩ : Fin 1) k) (ix1 k) (fun a => match a with
    | ⟨0, _⟩ => by show k.val = if (64 : Nat) = 1 then 0 else k.val; rw [if_neg (by decide)])

/-- A bias vector of length `128`, made a `1 × 128` row and then repeated down `600000` rows, read at row `r`,
    column `k`, is its `k`-th entry. -/
theorem bias_128_apply (b : FVec Ideal S128 .f32) (r : Fin 600000) (k : Fin 128) :
    broadcastInDim S600000x128 ![0, 1] bcast_S1x128_S600000x128_0_1 (broadcastInDim S1x128 ![1] bcast_S128_S1x128_1 b) (ix2 r k)
      = b (ix1 k) := by
  refine (broadcastInDim_apply _ bcast_S1x128_S600000x128_0_1 _ (ix2 r k) (ix2 (⟨0, Nat.one_pos⟩ : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ bcast_S128_S1x128_1 b (ix2 (⟨0, Nat.one_pos⟩ : Fin 1) k) (ix1 k) (fun a => match a with
    | ⟨0, _⟩ => by show k.val = if (128 : Nat) = 1 then 0 else k.val; rw [if_neg (by decide)])

/-- The zero constant repeated over an `600000 × 64` array reads, everywhere, the number its word encodes. -/
theorem zero_600000x64_apply (y : S600000x64.Idx) :
    broadcastInDim S600000x64 ![] bcast_S_S600000x64 (constant (F := Ideal) S_ .f32 0x00000000#32) y
      = Ideal.ofBits .f32 0x00000000#32 :=
  broadcastInDim_apply _ bcast_S_S600000x64 _ y ix0 (fun a => a.elim0)

/-- The reference's first perceptron — product with the first weights, bias, clip at zero, product with the second
    weights, bias — is the specification's two layers applied to every row. -/
theorem mlp1_ref (X : FVec Ideal S600000x4 .f32) (w1 : FVec Ideal S4x64 .f32) (b1 : FVec Ideal S64 .f32)
    (w2 : FVec Ideal S64x128 .f32) (b2 : FVec Ideal S128 .f32) :
    addf (Host.dotGeneral (F := Ideal) dot_S600000x64_S64x128_S600000x128_1_0_0_1_n_n none (maximumf (addf (Host.dotGeneral (F := Ideal) dot_S600000x4_S4x64_S600000x64_1_0_0_1_n_n none X w1) (broadcastInDim S600000x64 ![0, 1] bcast_S1x64_S600000x64_0_1 (broadcastInDim S1x64 ![1] bcast_S64_S1x64_1 b1))) (broadcastInDim S600000x64 ![] bcast_S_S600000x64 (constant (F := Ideal) S_ .f32 0x00000000#32))) w2) (broadcastInDim S600000x128 ![0, 1] bcast_S1x128_S600000x128_0_1 (broadcastInDim S1x128 ![1] bcast_S128_S1x128_1 b2))
      = Cert.Spec.mlp X w1 b1 w2 b2 := by
  funext y
  obtain ⟨r, j, rfl⟩ : ∃ (r : Fin 600000) (j : Fin 128), y = ix2 r j := ⟨y 0, y 1, eq_ix2 y⟩
  rw [Cert.Spec.mlp_apply, addf_apply, dot_64_128_apply, bias_128_apply]
  unfold Cert.Spec.mlpRow
  refine congrArg (· + b2 (ix1 j)) (Finset.sum_congr rfl fun k _ => ?_)
  rw [maximumf_apply, addf_apply, dot_4_64_apply, bias_64_apply, zero_600000x64_apply]

/-- In the product of a `100000 × 132` array with a `132 × 256` array the left operand is read at the result's row … -/
theorem dot_132_256_apply_l0 (i : S100000x256.Idx) (q : dot_S100000x132_S132x256_S100000x256_1_0_0_1_n_n.contr.Idx) : (dot_S100000x132_S132x256_S100000x256_1_0_0_1_n_n.lhsIdx i q 0).val = (i 0).val := by
  unfold DotDims.lhsIdx
  rw [dif_neg (show ¬(0 : Fin S100000x132.rank) ∈ dot_S100000x132_S132x256_S100000x256_1_0_0_1_n_n.lhsBatch by decide), dif_pos (show (0 : Fin S100000x132.rank) ∈ dot_S100000x132_S132x256_S100000x256_1_0_0_1_n_n.lhsNonContracting by decide)]
  rfl
/-- … and the right operand at the result's column. -/
theorem dot_132_256_apply_r1 (i : S100000x256.Idx) (q : dot_S100000x132_S132x256_S100000x256_1_0_0_1_n_n.contr.Idx) : (dot_S100000x132_S132x256_S100000x256_1_0_0_1_n_n.rhsIdx i q 1).val = (i 1).val := by
  unfold DotDims.rhsIdx
  rw [dif_neg (show ¬(1 : Fin S132x256.rank) ∈ dot_S100000x132_S132x256_S100000x256_1_0_0_1_n_n.rhsBatch by decide), dif_pos (show (1 : Fin S132x256.rank) ∈ dot_S100000x132_S132x256_S100000x256_1_0_0_1_n_n.rhsNonContracting by decide)]
  rfl
/-- That product read at row `r`, column `j`: the sum over the contracted coordinate of the row's entries times the
    column's. -/
theorem dot_132_256_apply (L : FVec Ideal S100000x132 .f32) (R : FVec Ideal S132x256 .f32) (r : Fin 100000) (j : Fin 256) :
    Host.dotGeneral (F := Ideal) dot_S100000x132_S132x256_S100000x256_1_0_0_1_n_n none L R (ix2 r j) = ∑ k : Fin 132, L (ix2 r k) * R (ix2 k j) := by
  simp only [Host.dotGeneral]
  rw [Ideal.dotGeneral_apply, ← Equiv.sum_comp (contrEquiv1 dot_S100000x132_S132x256_S100000x256_1_0_0_1_n_n 132 rfl rfl).symm]
  refine Finset.sum_congr rfl fun k _ => ?_
  have hk := contrEquiv1_symm_val dot_S100000x132_S132x256_S100000x256_1_0_0_1_n_n 132 rfl rfl k
  have el : dot_S100000x132_S132x256_S100000x256_1_0_0_1_n_n.lhsIdx (ix2 r j) ((contrEquiv1 dot_S100000x132_S132x256_S100000x256_1_0_0_1_n_n 132 rfl rfl).symm k) = ix2 r k := funext fun a => Fin.ext (by
    match a with
    | ⟨0, _⟩ => exact dot_132_256_apply_l0 _ _
    | ⟨1, _⟩ => exact (dot_S100000x132_S132x256_S100000x256_1_0_0_1_n_n.lhsIdx_val_of_single rfl _ _).trans hk)
  have er : dot_S100000x132_S132x256_S100000x256_1_0_0_1_n_n.rhsIdx (ix2 r j) ((contrEquiv1 dot_S100000x132_S132x256_S100000x256_1_0_0_1_n_n 132 rfl rfl).symm k) = ix2 k j := funext fun a => Fin.ext (by
    match a with
    | ⟨0, _⟩ => exact (dot_S100000x132_S132x256_S100000x256_1_0_0_1_n_n.rhsIdx_val_of_single rfl _ _).trans hk
    | ⟨1, _⟩ => exact dot_132_256_apply_r1 _ _)
  rw [el, er]

/-- In the product of a `100000 × 256` array with a `256 × 512` array the left operand is read at the result's row … -/
theorem dot_256_512_apply_l0 (i : S100000x512.Idx) (q : dot_S100000x256_S256x512_S100000x512_1_0_0_1_n_n.contr.Idx) : (dot_S100000x256_S256x512_S100000x512_1_0_0_1_n_n.lhsIdx i q 0).val = (i 0).val := by
  unfold DotDims.lhsIdx
  rw [dif_neg (show ¬(0 : Fin S100000x256.rank) ∈ dot_S100000x256_S256x512_S100000x512_1_0_0_1_n_n.lhsBatch by decide), dif_pos (show (0 : Fin S100000x256.rank) ∈ dot_S100000x256_S256x512_S100000x512_1_0_0_1_n_n.lhsNonContracting by decide)]
  rfl
/-- … and the right operand at the result's column. -/
theorem dot_256_512_apply_r1 (i : S100000x512.Idx) (q : dot_S100000x256_S256x512_S100000x512_1_0_0_1_n_n.contr.Idx) : (dot_S100000x256_S256x512_S100000x512_1_0_0_1_n_n.rhsIdx i q 1).val = (i 1).val := by
  unfold DotDims.rhsIdx
  rw [dif_neg (show ¬(1 : Fin S256x512.rank) ∈ dot_S100000x256_S256x512_S100000x512_1_0_0_1_n_n.rhsBatch by decide), dif_pos (show (1 : Fin S256x512.rank) ∈ dot_S100000x256_S256x512_S100000x512_1_0_0_1_n_n.rhsNonContracting by decide)]
  rfl
/-- That product read at row `r`, column `j`: the sum over the contracted coordinate of the row's entries times the
    column's. -/
theorem dot_256_512_apply (L : FVec Ideal S100000x256 .f32) (R : FVec Ideal S256x512 .f32) (r : Fin 100000) (j : Fin 512) :
    Host.dotGeneral (F := Ideal) dot_S100000x256_S256x512_S100000x512_1_0_0_1_n_n none L R (ix2 r j) = ∑ k : Fin 256, L (ix2 r k) * R (ix2 k j) := by
  simp only [Host.dotGeneral]
  rw [Ideal.dotGeneral_apply, ← Equiv.sum_comp (contrEquiv1 dot_S100000x256_S256x512_S100000x512_1_0_0_1_n_n 256 rfl rfl).symm]
  refine Finset.sum_congr rfl fun k _ => ?_
  have hk := contrEquiv1_symm_val dot_S100000x256_S256x512_S100000x512_1_0_0_1_n_n 256 rfl rfl k
  have el : dot_S100000x256_S256x512_S100000x512_1_0_0_1_n_n.lhsIdx (ix2 r j) ((contrEquiv1 dot_S100000x256_S256x512_S100000x512_1_0_0_1_n_n 256 rfl rfl).symm k) = ix2 r k := funext fun a => Fin.ext (by
    match a with
    | ⟨0, _⟩ => exact dot_256_512_apply_l0 _ _
    | ⟨1, _⟩ => exact (dot_S100000x256_S256x512_S100000x512_1_0_0_1_n_n.lhsIdx_val_of_single rfl _ _).trans hk)
  have er : dot_S100000x256_S256x512_S100000x512_1_0_0_1_n_n.rhsIdx (ix2 r j) ((contrEquiv1 dot_S100000x256_S256x512_S100000x512_1_0_0_1_n_n 256 rfl rfl).symm k) = ix2 k j := funext fun a => Fin.ext (by
    match a with
    | ⟨0, _⟩ => exact (dot_S100000x256_S256x512_S100000x512_1_0_0_1_n_n.rhsIdx_val_of_single rfl _ _).trans hk
    | ⟨1, _⟩ => exact dot_256_512_apply_r1 _ _)
  rw [el, er]

/-- A bias vector of length `256`, made a `1 × 256` row and then repeated down `100000` rows, read at row `r`,
    column `k`, is its `k`-th entry. -/
theorem bias_256_apply (b : FVec Ideal S256 .f32) (r : Fin 100000) (k : Fin 256) :
    broadcastInDim S100000x256 ![0, 1] bcast_S1x256_S100000x256_0_1 (broadcastInDim S1x256 ![1] bcast_S256_S1x256_1 b) (ix2 r k)
      = b (ix1 k) := by
  refine (broadcastInDim_apply _ bcast_S1x256_S100000x256_0_1 _ (ix2 r k) (ix2 (⟨0, Nat.one_pos⟩ : Fin 1) k) (fun a => match a with
    | ⟨0, _⟩ => by show 0 = if (1 : Nat) = 1 then 0 else r.val; rw [if_pos rfl]
    | ⟨1, _⟩ => by show k.val = if (256 : Nat) = 1 then 0 else k.val; rw [if_neg (by decide)])).trans ?_
  exact broadcastInDim_apply _ bcast_S256_S1x256_1 b (ix2 (⟨0, Nat.one_pos⟩ : Fin 1) k) (ix1 k) (fun a => match a with
    | ⟨0, _⟩ => by show k.val = if (256 : Nat) = 1 then 0 else k.val; rw [if_neg (by decide)])

/-- A bias vector of length `512`, made a `1 × 512` row and then repeated down `100000` rows, read at row `r`,
    column `k`, is its `k`-th entry. -/
theorem bias_512_apply (b : FVec Ideal S512 .f32) (r : Fin 100000) (k : Fin 512) :
    broadcastInDim S100000x512 ![0, 1] bcast_S1x512_S100000x512_0_1 (broadcastInDim S1x512 ![1] bcast_S512_S1x512_1 b) (ix2 r k)
      = b (ix1 k) := by
  refine (broadcastInDim_apply _ bcast_S1x512_S100000x512_0_1 _ (ix2 r k) (ix2 (⟨0, Nat.one_pos⟩ : Fin 1) k) (fun a => match a with
    | ⟨0, _⟩ => by show 0 = if (1 : Nat) = 1 then 0 else r.val; rw [if_pos rfl]
    | ⟨1, _⟩ => by show k.val = if (512 : Nat) = 1 then 0 else k.val; rw [if_neg (by decide)])).trans ?_
  exact broadcastInDim_apply _ bcast_S512_S1x512_1 b (ix2 (⟨0, Nat.one_pos⟩ : Fin 1) k) (ix1 k) (fun a => match a with
    | ⟨0, _⟩ => by show k.val = if (512 : Nat) = 1 then 0 else k.val; rw [if_neg (by decide)])

/-- The zero constant repeated over an `100000 × 256` array reads, everywhere, the number its word encodes. -/
theorem zero_100000x256_apply (y : S100000x256.Idx) :
    broadcastInDim S100000x256 ![] bcast_S_S100000x256 (constant (F := Ideal) S_ .f32 0x00000000#32) y
      = Ideal.ofBits .f32 0x00000000#32 :=
  broadcastInDim_apply _ bcast_S_S100000x256 _ y ix0 (fun a => a.elim0)

/-- The reference's second perceptron — product with the first weights, bias, clip at zero, product with the second
    weights, bias — is the specification's two layers applied to every row. -/
theorem mlp2_ref (Z : FVec Ideal S100000x132 .f32) (w1 : FVec Ideal S132x256 .f32) (b1 : FVec Ideal S256 .f32)
    (w2 : FVec Ideal S256x512 .f32) (b2 : FVec Ideal S512 .f32) :
    addf (Host.dotGeneral (F := Ideal) dot_S100000x256_S256x512_S100000x512_1_0_0_1_n_n none (maximumf (addf (Host.dotGeneral (F := Ideal) dot_S100000x132_S132x256_S100000x256_1_0_0_1_n_n none Z w1) (broadcastInDim S100000x256 ![0, 1] bcast_S1x256_S100000x256_0_1 (broadcastInDim S1x256 ![1] bcast_S256_S1x256_1 b1))) (broadcastInDim S100000x256 ![] bcast_S_S100000x256 (constant (F := Ideal) S_ .f32 0x00000000#32))) w2) (broadcastInDim S100000x512 ![0, 1] bcast_S1x512_S100000x512_0_1 (broadcastInDim S1x512 ![1] bcast_S512_S1x512_1 b2))
      = Cert.Spec.mlp Z w1 b1 w2 b2 := by
  funext y
  obtain ⟨r, j, rfl⟩ : ∃ (r : Fin 100000) (j : Fin 512), y = ix2 r j := ⟨y 0, y 1, eq_ix2 y⟩
  rw [Cert.Spec.mlp_apply, addf_apply, dot_256_512_apply, bias_512_apply]
  unfold Cert.Spec.mlpRow
  refine congrArg (· + b2 (ix1 j)) (Finset.sum_congr rfl fun k _ => ?_)
  rw [maximumf_apply, addf_apply, dot_132_256_apply, bias_256_apply, zero_100000x256_apply]

end Cert.ReferenceIdeal.RefValue

end
-- ==== Proof.RefTerm.lean ====
import proofs.«167135_j47966194762017_1_alg».proof.Proof.RefValue
/-
  The reference's whole result in terms of the specification.

  The reference's result is one composed term of its argument arrays in which the two perceptrons occur as chains of
  whole-array operations, the first inside the array the second is applied to. Each chain is the specification's two
  layers applied to every row (`mlp1_ref`, `mlp2_ref`, which leave the array a chain is applied to a variable), so
  rewriting the term with them, the inner chain first, gives the statement below.
-/

noncomputable section

namespace Cert.ReferenceIdeal.RefValue

open Cert.ReferenceIdeal Cert.ReferenceIdeal.Gen Idealize.ShloMosaic Idealize.ShloMosaic.ValueIdx

/-- The reference's result, as one composed term of its thirteen argument arrays, with each of its two perceptrons
    replaced by the specification's two layers. The first is applied to the `600000 × 4` array joined from gathered
    rows of the first argument and the third argument; the second to the `100000 × 132` array joined from the first
    argument, the scattered sums of the first's rows divided by the clipped counts, and gathered rows of the fourth
    argument. Nothing else of the term is touched. -/
theorem ref_result (a0 : FVec Ideal S100000x2 .f32) (a1 : IVec S2x600000 32) (a2 : FVec Ideal S600000x2 .f32) (a3 : FVec Ideal S512x2 .f32) (a4 : IVec S100000 32) (a5 : FVec Ideal S4x64 .f32) (a6 : FVec Ideal S64 .f32) (a7 : FVec Ideal S64x128 .f32) (a8 : FVec Ideal S128 .f32) (a9 : FVec Ideal S132x256 .f32) (a10 : FVec Ideal S256 .f32) (a11 : FVec Ideal S256x512 .f32) (a12 : FVec Ideal S512 .f32) :
    addf (Host.dotGeneral (F := Ideal) dot_S100000x256_S256x512_S100000x512_1_0_0_1_n_n none (maximumf (addf (Host.dotGeneral (F := Ideal) dot_S100000x132_S132x256_S100000x256_1_0_0_1_n_n none (concatenate S100000x132 1 [⟨S100000x2, a0⟩, ⟨S100000x128, (Host.divf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (addf (Host.dotGeneral (F := Ideal) dot_S600000x64_S64x128_S600000x128_1_0_0_1_n_n none (maximumf (addf (Host.dotGeneral (F := Ideal) dot_S600000x4_S4x64_S600000x64_1_0_0_1_n_n none (concatenate S600000x4 1 [⟨S600000x2, (Host.gather gather_S100000x2_S600000x1_S600000x2_1_0_n_n_0_1_12 a0 (broadcastInDim S600000x1 ![0] bcast_S600000_S600000x1_0 (select (cmpi .slt (shapeCast _ (extractStridedSlice S1x600000 ![1, 0] a1 slices_S2x600000_S1x600000_1_0) shapeCasts_S1x600000_S600000) (broadcastInDim S600000 ![] bcast_S_S600000 (constantI S_ 32 0#32))) (addi (shapeCast _ (extractStridedSlice S1x600000 ![1, 0] a1 slices_S2x600000_S1x600000_1_0) shapeCasts_S1x600000_S600000) (broadcastInDim S600000 ![] bcast_S_S600000 (constantI S_ 32 100000#32))) (shapeCast _ (extractStridedSlice S1x600000 ![1, 0] a1 slices_S2x600000_S1x600000_1_0) shapeCasts_S1x600000_S600000))))⟩, ⟨S600000x2, a2⟩] concatenates_S600000x2_S600000x2_S600000x4_d1) a5) (broadcastInDim S600000x64 ![0, 1] bcast_S1x64_S600000x64_0_1 (broadcastInDim S1x64 ![1] bcast_S64_S1x64_1 a6))) (broadcastInDim S600000x64 ![] bcast_S_S600000x64 (constant (F := Ideal) S_ .f32 0x00000000#32))) a7) (broadcastInDim S600000x128 ![0, 1] bcast_S1x128_S600000x128_0_1 (broadcastInDim S1x128 ![1] bcast_S128_S1x128_1 a8)))) (broadcastInDim S100000x128 ![0, 1] bcast_S100000x1_S100000x128_0_1 (maximumf (Host.scatterAdd scatter_S100000x1_S600000x1_S600000x1_1_0_0_1 (broadcastInDim S100000x1 ![] bcast_S_S100000x1 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (broadcastInDim S600000x1 ![] bcast_S_S600000x1 (constant (F := Ideal) S_ .f32 0x3F800000#32))) (broadcastInDim S100000x1 ![] bcast_S_S100000x1 (constant (F := Ideal) S_ .f32 0x3F800000#32)))))⟩, ⟨S100000x2, (Host.gather gather_S512x2_S100000x1_S100000x2_1_0_n_n_0_1_12 a3 (broadcastInDim S100000x1 ![0] bcast_S100000_S100000x1_0 (select (cmpi .slt a4 (broadcastInDim S100000 ![] bcast_S_S100000 (constantI S_ 32 0#32))) (addi a4 (broadcastInDim S100000 ![] bcast_S_S100000 (constantI S_ 32 512#32))) a4)))⟩] concatenates_S100000x2_S100000x128_S100000x2_S100000x132_d1) a9) (broadcastInDim S100000x256 ![0, 1] bcast_S1x256_S100000x256_0_1 (broadcastInDim S1x256 ![1] bcast_S256_S1x256_1 a10))) (broadcastInDim S100000x256 ![] bcast_S_S100000x256 (constant (F := Ideal) S_ .f32 0x00000000#32))) a11) (broadcastInDim S100000x512 ![0, 1] bcast_S1x512_S100000x512_0_1 (broadcastInDim S1x512 ![1] bcast_S512_S1x512_1 a12))
      = Cert.Spec.mlp (concatenate S100000x132 1 [⟨S100000x2, a0⟩, ⟨S100000x128, (Host.divf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (Cert.Spec.mlp (concatenate S600000x4 1 [⟨S600000x2, (Host.gather gather_S100000x2_S600000x1_S600000x2_1_0_n_n_0_1_12 a0 (broadcastInDim S600000x1 ![0] bcast_S600000_S600000x1_0 (select (cmpi .slt (shapeCast _ (extractStridedSlice S1x600000 ![1, 0] a1 slices_S2x600000_S1x600000_1_0) shapeCasts_S1x600000_S600000) (broadcastInDim S600000 ![] bcast_S_S600000 (constantI S_ 32 0#32))) (addi (shapeCast _ (extractStridedSlice S1x600000 ![1, 0] a1 slices_S2x600000_S1x600000_1_0) shapeCasts_S1x600000_S600000) (broadcastInDim S600000 ![] bcast_S_S600000 (constantI S_ 32 100000#32))) (shapeCast _ (extractStridedSlice S1x600000 ![1, 0] a1 slices_S2x600000_S1x600000_1_0) shapeCasts_S1x600000_S600000))))⟩, ⟨S600000x2, a2⟩] concatenates_S600000x2_S600000x2_S600000x4_d1) a5 a6 a7 a8)) (broadcastInDim S100000x128 ![0, 1] bcast_S100000x1_S100000x128_0_1 (maximumf (Host.scatterAdd scatter_S100000x1_S600000x1_S600000x1_1_0_0_1 (broadcastInDim S100000x1 ![] bcast_S_S100000x1 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (broadcastInDim S600000x1 ![] bcast_S_S600000x1 (constant (F := Ideal) S_ .f32 0x3F800000#32))) (broadcastInDim S100000x1 ![] bcast_S_S100000x1 (constant (F := Ideal) S_ .f32 0x3F800000#32)))))⟩, ⟨S100000x2, (Host.gather gather_S512x2_S100000x1_S100000x2_1_0_n_n_0_1_12 a3 (broadcastInDim S100000x1 ![0] bcast_S100000_S100000x1_0 (select (cmpi .slt a4 (broadcastInDim S100000 ![] bcast_S_S100000 (constantI S_ 32 0#32))) (addi a4 (broadcastInDim S100000 ![] bcast_S_S100000 (constantI S_ 32 512#32))) a4)))⟩] concatenates_S100000x2_S100000x128_S100000x2_S100000x132_d1) a9 a10 a11 a12 := by
  rw [mlp1_ref, mlp2_ref]

end Cert.ReferenceIdeal.RefValue

end
-- ==== Proof.Bridge.lean ====
import proofs.«167135_j47966194762017_1_alg».proof.Proof.KI.Host
import proofs.«167135_j47966194762017_1_alg».proof.Proof.RefTerm
/-
  From the reference's run to the kernel program's term.

  The kernel program's arrays outside its tiled computations and the reference's composed result name the same
  shapes, index-selection records and layout facts, each under its own program's copy of them; the copies hold the
  same data, so the kernel program's term of the thirteen arguments and the reference's result term with its two
  perceptrons replaced by the specification are one term (`bridge`). With the reference's run read back as that
  composed term, and memories that agree on the arguments, the reference therefore ends with its result at the
  kernel program's term of the kernel program's arguments (`ref_run`).
-/

noncomputable section

namespace Cert.Bridge

open Idealize.ShloMosaic Idealize.SL.Sem

section
open Cert.ReferenceIdeal Cert.ReferenceIdeal.Gen

/-- The kernel program's host-side term and the reference's term with its perceptrons replaced by the specification
    are the same term: they differ only in which program's copy of the shapes and dimension records they name, and
    the two copies are the same data. -/
theorem bridge (a0 : FVec Ideal Cert.KernelIdeal.S100000x2 .f32) (a1 : IVec Cert.KernelIdeal.S2x600000 32) (a2 : FVec Ideal Cert.KernelIdeal.S600000x2 .f32) (a3 : FVec Ideal Cert.KernelIdeal.S512x2 .f32) (a4 : IVec Cert.KernelIdeal.S100000 32) (a5 : FVec Ideal Cert.KernelIdeal.S4x64 .f32) (a6 : FVec Ideal Cert.KernelIdeal.S64 .f32) (a7 : FVec Ideal Cert.KernelIdeal.S64x128 .f32) (a8 : FVec Ideal Cert.KernelIdeal.S128 .f32) (a9 : FVec Ideal Cert.KernelIdeal.S132x256 .f32) (a10 : FVec Ideal Cert.KernelIdeal.S256 .f32) (a11 : FVec Ideal Cert.KernelIdeal.S256x512 .f32) (a12 : FVec Ideal Cert.KernelIdeal.S512 .f32) :
    Cert.KernelIdeal.Host.kTerm a0 a1 a2 a3 a4 a5 a6 a7 a8 a9 a10 a11 a12
      = Cert.Spec.mlp (concatenate S100000x132 1 [⟨S100000x2, a0⟩, ⟨S100000x128, (Host.divf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (Cert.Spec.mlp (concatenate S600000x4 1 [⟨S600000x2, (Host.gather gather_S100000x2_S600000x1_S600000x2_1_0_n_n_0_1_12 a0 (broadcastInDim S600000x1 ![0] bcast_S600000_S600000x1_0 (select (cmpi .slt (shapeCast _ (extractStridedSlice S1x600000 ![1, 0] a1 slices_S2x600000_S1x600000_1_0) shapeCasts_S1x600000_S600000) (broadcastInDim S600000 ![] bcast_S_S600000 (constantI S_ 32 0#32))) (addi (shapeCast _ (extractStridedSlice S1x600000 ![1, 0] a1 slices_S2x600000_S1x600000_1_0) shapeCasts_S1x600000_S600000) (broadcastInDim S600000 ![] bcast_S_S600000 (constantI S_ 32 100000#32))) (shapeCast _ (extractStridedSlice S1x600000 ![1, 0] a1 slices_S2x600000_S1x600000_1_0) shapeCasts_S1x600000_S600000))))⟩, ⟨S600000x2, a2⟩] concatenates_S600000x2_S600000x2_S600000x4_d1) a5 a6 a7 a8)) (broadcastInDim S100000x128 ![0, 1] bcast_S100000x1_S100000x128_0_1 (maximumf (Host.scatterAdd scatter_S100000x1_S600000x1_S600000x1_1_0_0_1 (broadcastInDim S100000x1 ![] bcast_S_S100000x1 (constant (F := Ideal) S_ .f32 0x00000000#32)) (broadcastInDim S600000x1 ![0] bcast_S600000_S600000x1_0 (shapeCast _ (extractStridedSlice S1x600000 ![0, 0] a1 slices_S2x600000_S1x600000_0_0) shapeCasts_S1x600000_S600000)) (broadcastInDim S600000x1 ![] bcast_S_S600000x1 (constant (F := Ideal) S_ .f32 0x3F800000#32))) (broadcastInDim S100000x1 ![] bcast_S_S100000x1 (constant (F := Ideal) S_ .f32 0x3F800000#32)))))⟩, ⟨S100000x2, (Host.gather gather_S512x2_S100000x1_S100000x2_1_0_n_n_0_1_12 a3 (broadcastInDim S100000x1 ![0] bcast_S100000_S100000x1_0 (select (cmpi .slt a4 (broadcastInDim S100000 ![] bcast_S_S100000 (constantI S_ 32 0#32))) (addi a4 (broadcastInDim S100000 ![] bcast_S_S100000 (constantI S_ 32 512#32))) a4)))⟩] concatenates_S100000x2_S100000x128_S100000x2_S100000x132_d1) a9 a10 a11 a12 := by
  unfold Cert.KernelIdeal.Host.kTerm Cert.KernelIdeal.Host.nodeIn Cert.KernelIdeal.Host.eIn Cert.KernelIdeal.Host.rowIdx Cert.KernelIdeal.Host.colIdx
  rfl

end

/-- The reference, run from a memory that agrees with the kernel program's on the thirteen arguments, ends with its
    result at the kernel program's host-side term of the kernel program's arguments, and its own arguments
    unchanged. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = Cert.KernelIdeal.Host.kTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) := by
  refine (θ_run (Cert.ReferenceIdeal.defs (F := Ideal)) _ _).mono (fun _ h c => ⟨(h c).1.trans ?_, (h c).2⟩)
    (Cert.ReferenceIdeal.Value.run (F := Ideal) m' g')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.ReferenceIdeal.RefValue.ref_result _ _ _ _ _ _ _ _ _ _ _ _ _).trans (bridge _ _ _ _ _ _ _ _ _ _ _ _ _).symm

end Cert.Bridge

end
-- ==== Proof.lean ====
/-
  The five claims of this certificate.

  Both programs compute a graph-network layer: every edge's four numbers (the two features of its source node and its
  own two attributes) go through a two-layer perceptron; the 128 outputs are averaged over the edges arriving at each
  node; every node's 132 numbers (its two features, the average, the two features of its graph) go through a second
  two-layer perceptron. The kernel program runs the two perceptrons as tiled kernels over blocks of rows and the
  reference runs them as whole-array matrix products; everything between them is the same sequence of host
  operations in both. Over the extended reals a perceptron acts row by row, so the tiling does not change it, a
  matrix product into a zero accumulator is the plain sum of products, and a change of float format is the
  identity: the two results are one function of the arguments, and no property of the inputs is needed.

  The frames of the two kernel programs are the run of their four items (host stretch, region, host stretch, region);
  the reference's is its run with the result dropped; nothing was rewritten by the idealization, so its claim is
  trivial.
-/
import proofs.«167135_j47966194762017_1_alg».proof.Defs
import proofs.«167135_j47966194762017_1_alg».proof.Proof.Gen.Kernel
import proofs.«167135_j47966194762017_1_alg».proof.Proof.Gen.KernelIdeal
import proofs.«167135_j47966194762017_1_alg».proof.Proof.Gen.ReferenceIdeal
import proofs.«167135_j47966194762017_1_alg».proof.Proof.Gen.Pre_finite_inputs
import proofs.«167135_j47966194762017_1_alg».proof.Proof.Gen.ReferenceIdeal.Run
import proofs.«167135_j47966194762017_1_alg».proof.Proof.K.Run
import proofs.«167135_j47966194762017_1_alg».proof.Proof.KI.Value
import proofs.«167135_j47966194762017_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernel_ideal : Cert.frame_KernelIdeal := fun m ρ _ => Cert.KernelIdeal.Hand.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result array: the kernel program's is the composed term of the
    arguments, and the reference's run, read at arguments that agree, is the same term. -/
theorem algebraic : Cert.algebraic_KernelIdeal_ReferenceIdeal := fun m ρ m' ρ' _ hagree =>
  ⟨fun c => Cert.KernelIdeal.Host.kTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Hand.value_run m ρ, Cert.Bridge.ref_run m m' ρ' hagree⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
